-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x128 .f32) (main_arg1 : FVec F S1048576x128 .f32) (main_arg2 : IVec S1048576 32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_c_2 : IVec S_ 32 := constantI S_ 32 0#32
  let main_v9 : IVec S1048576 32 := broadcastInDim S1048576 ![] bcast_S_S1048576 main_c_2
  let main_v10 : IVec S1048576 1 := cmpi .sge main_arg2 main_v9
  let main_c_3 : IVec S_ 32 := constantI S_ 32 128#32
  let main_v11 : IVec S1048576 32 := broadcastInDim S1048576 ![] bcast_S_S1048576 main_c_3
  let main_v12 : IVec S1048576 1 := cmpi .slt main_arg2 main_v11
  let main_v13 : IVec S1048576 1 := andi main_v10 main_v12
  let main_c_4 : IVec S_ 1 := constantI S_ 1 1#1
  let main_v14 : IVec S_ 1 := (fun x v => Host.reduce IntOp.andi x v reducesTo_S1048576_S_d0 h_S_) main_v13 main_c_4
  let main_v15 : IVec S_ 1 := andi main_v8 main_v14
  main_v15
-- ==== Kernel.lean ====
abbrev S1048576x128 : Shape := ⟨2, ![1048576, 128]⟩
abbrev S1048576 : Shape := ⟨1, ![1048576]⟩
abbrev S1048576x1 : Shape := ⟨2, ![1048576, 1]⟩
abbrev S2x8x128 : Shape := ⟨3, ![2, 8, 128]⟩
abbrev S4096x128 : Shape := ⟨2, ![4096, 128]⟩
abbrev S4096x1 : Shape := ⟨2, ![4096, 1]⟩
abbrev S1x8x128 : Shape := ⟨3, ![1, 8, 128]⟩
abbrev S8x128 : Shape := ⟨2, ![8, 128]⟩
abbrev S4096 : Shape := ⟨1, ![4096]⟩
abbrev S128 : Shape := ⟨1, ![128]⟩
abbrev S1x128 : Shape := ⟨2, ![1, 128]⟩
abbrev S1x1x30 : Shape := ⟨3, ![1, 1, 30]⟩
abbrev S30 : Shape := ⟨1, ![30]⟩
abbrev S_ : Shape := ⟨0, ![]⟩

abbrev nBuf : Space → Nat
  | .hbm => 44
  | .vmem => 12
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .i32⟩
  | .hbm, ⟨3, _⟩ => ⟨S1048576x1, .i32⟩
  | .hbm, ⟨4, _⟩ => ⟨S2x8x128, .f32⟩
  | .hbm, ⟨5, _⟩ => ⟨S2x8x128, .f32⟩
  | .hbm, ⟨6, _⟩ => ⟨S1x1x30, .f32⟩
  | .hbm, ⟨7, _⟩ => ⟨S30, .f32⟩
  | .hbm, ⟨8, _⟩ => ⟨S1x1x30, .f32⟩
  | .hbm, ⟨9, _⟩ => ⟨S30, .f32⟩
  | .hbm, ⟨10, _⟩ => ⟨S30, .f32⟩
  | .hbm, ⟨11, _⟩ => ⟨S1x1x30, .f32⟩
  | .hbm, ⟨12, _⟩ => ⟨S30, .f32⟩
  | .hbm, ⟨13, _⟩ => ⟨S1x1x30, .f32⟩
  | .hbm, ⟨14, _⟩ => ⟨S30, .f32⟩
  | .hbm, ⟨15, _⟩ => ⟨S30, .f32⟩
  | .hbm, ⟨16, _⟩ => ⟨S_, .f32⟩
  | .hbm, ⟨17, _⟩ => ⟨S30, .f32⟩
  | .hbm, ⟨18, _⟩ => ⟨S30, .i1⟩
  | .hbm, ⟨19, _⟩ => ⟨S30, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S30, .f32⟩
  | .hbm, ⟨25, _⟩ => ⟨S30, .i1⟩
  | .hbm, ⟨26, _⟩ => ⟨S_, .f32⟩
  | .hbm, ⟨27, _⟩ => ⟨S30, .f32⟩
  | .hbm, ⟨28, _⟩ => ⟨S30, .f32⟩
  | .hbm, ⟨29, _⟩ => ⟨S_, .f32⟩
  | .hbm, ⟨30, _⟩ => ⟨S30, .f32⟩
  | .hbm, ⟨31, _⟩ => ⟨S30, .f32⟩
  | .hbm, ⟨32, _⟩ => ⟨S_, .f32⟩
  | .hbm, ⟨33, _⟩ => ⟨S_, .f32⟩
  | .hbm, ⟨34, _⟩ => ⟨S30, .f32⟩
  | .hbm, ⟨35, _⟩ => ⟨S30, .f32⟩
  | .hbm, ⟨36, _⟩ => ⟨S30, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .i32⟩
  | .local _ .vmem, ⟨5, _⟩ => ⟨S4096x1, .i32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | .local _ .vmem, ⟨11, _⟩ => ⟨S8x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v61 : BitVec 1 := Scalar.cmpi .eq arg1 c127_i32
  let v62 : BitVec 32 := Scalar.extui v61
  let c0_i32_22 : BitVec 32 := 0#32
  let v63 : BitVec 1 := Scalar.cmpi .ne v62 c0_i32_22
  v63

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1048576_S1048576x1 : S1048576.ShapeCasts S1048576x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  reduces_S4096x128_S4096 : S4096x128.Reduces [1] S4096
  shapeCasts_S4096_S4096x1 : S4096.ShapeCasts S4096x1
  reduces_S4096x128_S128 : S4096x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x30_0_0_0 : S2x8x128.Slices ![0, 0, 0] S1x1x30
  shapeCasts_S1x1x30_S30 : S1x1x30.ShapeCasts S30
  slices_S2x8x128_S1x1x30_1_0_0 : S2x8x128.Slices ![1, 0, 0] S1x1x30
  bcast_S_S30 : S_.BroadcastsInDim S30 (![] : Fin 0 → Fin S30.rank)
  reducesTo_S30_S_d0 : S30.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1048576x128.size a
  hwx0_1 : ∀ i : grid0.Coords, EltTy.bits .f32 = 32 ∨ (Rect.block (s := S1048576x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1048576x1.size a
  hwx0_2 : ∀ i : grid0.Coords, EltTy.bits .i32 = 32 ∨ (Rect.block (s := S1048576x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S1048576x1 : Shape := ⟨2, ![1048576, 1]⟩
abbrev S1x128 : Shape := ⟨2, ![1, 128]⟩
abbrev S_ : Shape := ⟨0, ![]⟩
abbrev S30 : Shape := ⟨1, ![30]⟩

abbrev nBuf : Space → Nat
  | .hbm => 99
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .i32⟩
  | .hbm, ⟨3, _⟩ => ⟨S1048576x1, .i32⟩
  | .hbm, ⟨4, _⟩ => ⟨S1x128, .i32⟩
  | .hbm, ⟨5, _⟩ => ⟨S1048576x128, .i32⟩
  | .hbm, ⟨6, _⟩ => ⟨S1048576x128, .i32⟩
  | .hbm, ⟨7, _⟩ => ⟨S1048576x128, .i1⟩
  | .hbm, ⟨8, _⟩ => ⟨S1048576x128, .f32⟩
  | .hbm, ⟨9, _⟩ => ⟨S_, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576x1, .f32⟩
  | .hbm, ⟨15, _⟩ => ⟨S1048576x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S1048576, .f32⟩
  | .hbm, ⟨20, _⟩ => ⟨S1048576x1, .f32⟩
  | .hbm, ⟨21, _⟩ => ⟨S1048576x1, .f32⟩
  | .hbm, ⟨22, _⟩ => ⟨S1048576x128, .f32⟩
  | .hbm, ⟨23, _⟩ => ⟨S1048576x128, .f32⟩
  | .hbm, ⟨24, _⟩ => ⟨S1048576x128, .f32⟩
  | .hbm, ⟨25, _⟩ => ⟨S_, .f32⟩
  | .hbm, ⟨26, _⟩ => ⟨S1048576, .f32⟩
  | .hbm, ⟨27, _⟩ => ⟨S1048576x128, .f32⟩
  | .hbm, ⟨28, _⟩ => ⟨S1048576x128, .f32⟩
  | .hbm, ⟨29, _⟩ => ⟨S_, .f32⟩
  | .hbm, ⟨30, _⟩ => ⟨S1048576x128, .f32⟩
  | .hbm, ⟨31, _⟩ => ⟨S1048576x128, .f32⟩
  | .hbm, ⟨32, _⟩ => ⟨S_, .f32⟩
  | .hbm, ⟨33, _⟩ => ⟨S1048576x128, .f32⟩
  | .hbm, ⟨34, _⟩ => ⟨S1048576x128, .f32⟩
  | .hbm, ⟨35, _⟩ => ⟨S1048576x128, .f32⟩
  | .hbm, ⟨36, _⟩ => ⟨S1048576x128, .f32⟩
  | .hbm, ⟨37, _⟩ => ⟨S1048576x128, .f32⟩
  | .hbm, ⟨38, _⟩ => ⟨S_, .f32⟩
  | .hbm, ⟨39, _⟩ => ⟨S1048576, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S1048576, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1048576, .i32⟩
  | .hbm, ⟨49, _⟩ => ⟨S1048576, .i32⟩
  | .hbm, ⟨50, _⟩ => ⟨S_, .i32⟩
  | .hbm, ⟨51, _⟩ => ⟨S1048576, .i32⟩
  | .hbm, ⟨52, _⟩ => ⟨S1048576, .i32⟩
  | .hbm, ⟨53, _⟩ => ⟨S_, .f32⟩
  | .hbm, ⟨54, _⟩ => ⟨S1048576, .f32⟩
  | .hbm, ⟨55, _⟩ => ⟨S_, .f32⟩
  | .hbm, ⟨56, _⟩ => ⟨S30, .f32⟩
  | .hbm, ⟨57, _⟩ => ⟨S1048576x1, .i32⟩
  | .hbm, ⟨58, _⟩ => ⟨S30, .f32⟩
  | .hbm, ⟨59, _⟩ => ⟨S_, .f32⟩
  | .hbm, ⟨60, _⟩ => ⟨S30, .f32⟩
  | .hbm, ⟨61, _⟩ => ⟨S30, .i1⟩
  | .hbm, ⟨62, _⟩ => ⟨S30, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S30, .f32⟩
  | .hbm, ⟨68, _⟩ => ⟨S30, .i1⟩
  | .hbm, ⟨69, _⟩ => ⟨S_, .f32⟩
  | .hbm, ⟨70, _⟩ => ⟨S30, .f32⟩
  | .hbm, ⟨71, _⟩ => ⟨S30, .f32⟩
  | .hbm, ⟨72, _⟩ => ⟨S_, .f32⟩
  | .hbm, ⟨73, _⟩ => ⟨S30, .f32⟩
  | .hbm, ⟨74, _⟩ => ⟨S30, .f32⟩
  | .hbm, ⟨75, _⟩ => ⟨S_, .f32⟩
  | .hbm, ⟨76, _⟩ => ⟨S_, .f32⟩
  | .hbm, ⟨77, _⟩ => ⟨S30, .f32⟩
  | .hbm, ⟨78, _⟩ => ⟨S30, .f32⟩
  | .hbm, ⟨79, _⟩ => ⟨S_, .i32⟩
  | .hbm, ⟨80, _⟩ => ⟨S1048576, .i32⟩
  | .hbm, ⟨81, _⟩ => ⟨S1048576, .i1⟩
  | .hbm, ⟨82, _⟩ => ⟨S_, .i32⟩
  | .hbm, ⟨83, _⟩ => ⟨S1048576, .i32⟩
  | .hbm, ⟨84, _⟩ => ⟨S1048576, .i32⟩
  | .hbm, ⟨85, _⟩ => ⟨S1048576, .i32⟩
  | .hbm, ⟨86, _⟩ => ⟨S1048576x1, .i32⟩
  | .hbm, ⟨87, _⟩ => ⟨S1048576, .f32⟩
  | .hbm, ⟨88, _⟩ => ⟨S_, .f32⟩
  | .hbm, ⟨89, _⟩ => ⟨S_, .f32⟩
  | .hbm, ⟨90, _⟩ => ⟨S1048576, .f32⟩
  | .hbm, ⟨91, _⟩ => ⟨S1048576, .f32⟩
  | .hbm, ⟨92, _⟩ => ⟨S1048576, .f32⟩
  | .hbm, ⟨93, _⟩ => ⟨S1048576, .f32⟩
  | .hbm, ⟨94, _⟩ => ⟨S_, .f32⟩
  | .hbm, ⟨95, _⟩ => ⟨S1048576, .f32⟩
  | .hbm, ⟨96, _⟩ => ⟨S1048576, .f32⟩
  | .hbm, ⟨97, _⟩ => ⟨S_, .f32⟩
  | .hbm, ⟨98, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_c_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v18 : Ref sig .tc := ⟨.hbm, 52, rfl⟩
abbrev main_cst_5 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_7 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_8 : Ref sig .tc := ⟨.hbm, 63, rfl⟩
abbrev main_v26 : Ref sig .tc := ⟨.hbm, 64, rfl⟩
abbrev main_v27 : Ref sig .tc := ⟨.hbm, 65, rfl⟩
abbrev main_cst_9 : Ref sig .tc := ⟨.hbm, 66, rfl⟩
abbrev main_v28 : Ref sig .tc := ⟨.hbm, 67, rfl⟩
abbrev main_v29 : Ref sig .tc := ⟨.hbm, 68, rfl⟩
abbrev main_cst_10 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_v34 : Ref sig .tc := ⟨.hbm, 78, rfl⟩
abbrev main_c_13 : Ref sig .tc := ⟨.hbm, 79, rfl⟩
abbrev main_v35 : Ref sig .tc := ⟨.hbm, 80, rfl⟩
abbrev main_v36 : Ref sig .tc := ⟨.hbm, 81, rfl⟩
abbrev main_c_14 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_15 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_16 : Ref sig .tc := ⟨.hbm, 94, rfl⟩
abbrev main_v47 : Ref sig .tc := ⟨.hbm, 95, rfl⟩
abbrev main_v48 : Ref sig .tc := ⟨.hbm, 96, rfl⟩
abbrev main_cst_17 : Ref sig .tc := ⟨.hbm, 97, rfl⟩
abbrev main_v49 : Ref sig .tc := ⟨.hbm, 98, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S1x128_S1048576x128_0_1 : S1x128.BroadcastsInDim S1048576x128 (![0, 1] : Fin 2 → Fin S1048576x128.rank)
  reducesTo_S1048576x128_S1048576_d1 : S1048576x128.ReducesTo [1] S1048576
  h_S_ : 0 < S_.numel
  bcast_S_S1048576 : S_.BroadcastsInDim S1048576 (![] : Fin 0 → Fin S1048576.rank)
  bcast_S_S1048576x128 : S_.BroadcastsInDim S1048576x128 (![] : Fin 0 → Fin S1048576x128.rank)
  bcast_S_S30 : S_.BroadcastsInDim S30 (![] : Fin 0 → Fin S30.rank)
  natLt_1_32 : 1 < 32
  reducesTo_S30_S_d0 : S30.ReducesTo [0] S_
  reducesTo_S1048576_S_d0 : S1048576.ReducesTo [0] S_
  scatter_S30_S1048576x1_S1048576_n_0_0_1_wf : ScatterDims.WF S30 S1048576x1 S1048576 [] [0] [0] 1
  gather_S30_S1048576x1_S1048576_n_0_n_n_0_1_1_wf : GatherDims.WF S30 S1048576x1 S1048576 [] [0] [] [0] [] 1 ![1]

variable [Facts₀]

def scatter_S30_S1048576x1_S1048576_n_0_0_1 : ScatterDims S30 S1048576x1 S1048576 where
  updateWindowDims := []
  insertedWindowDims := [0]
  scatterDimsToOperandDims := [0]
  indexVectorDim := 1
  wf := scatter_S30_S1048576x1_S1048576_n_0_0_1_wf
def gather_S30_S1048576x1_S1048576_n_0_n_n_0_1_1 : GatherDims S30 S1048576x1 S1048576 where
  offsetDims := []
  collapsedSliceDims := [0]
  operandBatchingDims := []
  startIndicesBatchingDims := []
  startIndexMap := [0]
  indexVectorDim := 1
  sliceSizes := ![1]
  wf := gather_S30_S1048576x1_S1048576_n_0_n_n_0_1_1_wf

class Facts : Prop extends Facts₀ where

variable [Facts]
-- ==== Proof.Spec.lean ====
/-
  The loss both programs compute, stated once over plain index types.

  Rows are `r : Fin 1048576`, classes `c : Fin 128`, bins `b : Fin 30`.  For a row `p` of scores, a row `t` of
  targets and a label word `l`:
    * `hot l c` is 1 at the labelled class and 0 elsewhere;
    * the negated log-probability of the labelled class, `-(p_l - (m + log Σ_c exp (p_c - m)))` with `m` the row maximum,
      in the two arrangements the programs use (`negLogpK`: the selected score minus the log-sum-exp;
      `negLogpR`: the selected entry of the shifted scores minus the log of the sum);
    * the gradient norm `g = Σ_c |σ(p_c) - t_c| · hot l c` (`gradK`, `gradR`: the logistic function as one operation,
      resp. as the quotient `1 / (1 + exp (-p_c))`), and its bin `clip (⌊30 g⌋, 0, 29)`.
  With `counts b` the number of rows in bin `b`, `W b = N / max (counts b) 1` on the non-empty bins (0 on the empty
  ones) and `M = max (number of non-empty bins) 1`, the loss is
    `lossK`:  (Σ_b W b · Σ_{r in bin b} a_r) / (M · N)        (sums per bin first),
    `lossR`:  Σ_r (a_r · (W (bin r) / M)) / N                 (row by row).
  Over the reals these are one number: the sum over rows regrouped by bin.
-/
import Idealize.ShloMosaic.PureOps.Ideal
import Idealize.ShloMosaic.PureOps.Ideal.Laws
import Idealize.ShloMosaic.Lib.ValueIdx

noncomputable section

namespace Cert.BinLoss

open Idealize.ShloMosaic

/-- Rows, classes, bins. -/
abbrev NR : ℕ := 1048576
abbrev NC : ℕ := 128
abbrev NB : ℕ := 30

abbrev S30 : Shape := ⟨1, ![30]⟩
abbrev S0 : Shape := ⟨0, ![]⟩

/-- The three float literals of the programs: the row count 2^20, one, and the bin count thirty. -/
def tot : EReal := Ideal.ofBits .f32 0x49800000#32
def one : EReal := Ideal.ofBits .f32 0x3F800000#32
def thirty : EReal := Ideal.ofBits .f32 0x41F00000#32

/-! ## One row -/

/-- The class mask of a label: 1 at the labelled class, 0 elsewhere. -/
def hot (l : BitVec 32) (c : Fin NC) : EReal := if l = BitVec.ofNat 32 c.val then 1 else 0

/-- The row maximum, as a fold of `max` from `-∞`. -/
def rowMax (p : Fin NC → EReal) : EReal := (Finset.univ : Finset (Fin NC)).fold max ⊥ p

/-- The bin word of a gradient norm: `⌊30 g⌋` converted to an integer word and clipped to `[0, 29]`. -/
def binWord (g : EReal) : BitVec 32 :=
  IntOp.minsi 29#32 (IntOp.maxsi 0#32 (Ideal.fptosi 32 (Ideal.liftRound Int.floor (g * thirty))))

/-- The bin as an index (the word is always in `[0, 29]`: `binWord_lt` in the algebra module). -/
def binOf (g : EReal) : Fin NB := if h : (binWord g).toNat < NB then ⟨(binWord g).toNat, h⟩ else ⟨0, by decide⟩

/-- The negated log-probability, the kernel's arrangement: `0 - (Σ_c p_c·hot_c - (m + log Σ_c exp (p_c - m)))`. -/
def negLogpK (p : Fin NC → EReal) (l : BitVec 32) : EReal :=
  0 - ((∑ c, p c * hot l c) - (rowMax p + Ideal.log (∑ c, Ideal.exp (p c - rowMax p))))

/-- The negated log-probability, the reference's arrangement: `-(0 + Σ_c ((p_c - m) - log (0 + Σ exp (p - m)))·hot_c)`. -/
def negLogpR (p : Fin NC → EReal) (l : BitVec 32) : EReal :=
  -(0 + ∑ c, ((p c - rowMax p) - Ideal.log (0 + ∑ c', Ideal.exp (p c' - rowMax p))) * hot l c)

/-- The gradient norm with the logistic function as one operation. -/
def gradK (p t : Fin NC → EReal) (l : BitVec 32) : EReal :=
  ∑ c, max (Ideal.logistic (p c) - t c) (-(Ideal.logistic (p c) - t c)) * hot l c

/-- The gradient norm with the logistic function spelt `1 / (1 + exp (-x))`, summed onto a zero. -/
def gradR (p t : Fin NC → EReal) (l : BitVec 32) : EReal :=
  0 + ∑ c, max (Ideal.div one (one + Ideal.exp (-(p c))) - t c) (-(Ideal.div one (one + Ideal.exp (-(p c))) - t c)) * hot l c

/-! ## All rows -/

section rows

variable {ι : Type} [Fintype ι]

/-- Row `r` is in bin `b`: 1 or 0. -/
def ind (bin : ι → Fin NB) (b : Fin NB) (r : ι) : EReal := if bin r = b then 1 else 0

/-- Rows per bin. -/
def counts (bin : ι → Fin NB) (b : Fin NB) : EReal := ∑ r, ind bin b r

/-- The per-bin sum of a row quantity. -/
def binSum (a : ι → EReal) (bin : ι → Fin NB) (b : Fin NB) : EReal := ∑ r, ind bin b r * a r

/-- The per-bin weight: `N / max (count) 1` where the count is positive, else 0. -/
def weight (cnt : Fin NB → EReal) (b : Fin NB) : EReal :=
  Scalar.select (Ideal.cmp .ogt (cnt b) 0) (Ideal.div tot (max (cnt b) one)) 0

/-- The number of non-empty bins: the comparison bits widened to words, summed by the integer reduction `red` of the
    programs, read back as a number. -/
def nonempty (red : IVec S30 32 → IVec S0 32) (cnt : Fin NB → EReal) : EReal :=
  (((red fun j => (Ideal.cmp .ogt (cnt (j 0)) 0).setWidth 32) ValueIdx.ix0).toInt : ℝ)

/-- The loss with the per-bin sums taken first. -/
def lossK (cnt sl : Fin NB → EReal) (nn : EReal) : EReal :=
  Ideal.div (0 + ∑ b, weight cnt b * sl b) (max nn one * tot)

/-- The loss row by row. -/
def lossR (cnt : Fin NB → EReal) (nn : EReal) (a : ι → EReal) (bin : ι → Fin NB) : EReal :=
  0 + ∑ r, Ideal.div (a r * Ideal.div (weight cnt (bin r)) (max nn one)) tot

end rows

/-! ## The two programs' results as functions of the argument arrays -/

section arrays

variable (red : IVec S30 32 → IVec S0 32)
variable (P T : Fin NR → Fin NC → EReal) (Lb : Fin NR → BitVec 32)

def aK (r : Fin NR) : EReal := negLogpK (P r) (Lb r)
def aR (r : Fin NR) : EReal := negLogpR (P r) (Lb r)
def binK (r : Fin NR) : Fin NB := binOf (gradK (P r) (T r) (Lb r))
def binR (r : Fin NR) : Fin NB := binOf (gradR (P r) (T r) (Lb r))

/-- What the kernel's program returns. -/
def lossKernel : EReal :=
  lossK (counts (binK P T Lb)) (binSum (aK P Lb) (binK P T Lb)) (nonempty red (counts (binK P T Lb)))

/-- What the reference returns. -/
def lossRef : EReal :=
  lossR (counts (binR P T Lb)) (nonempty red (counts (binR P T Lb))) (aR P Lb) (binR P T Lb)

end arrays

end Cert.BinLoss

end
-- ==== Proof.RefRows.lean ====
/-
  The reference program read row by row.  For a row r of the scores, the targets and the labels, each stage of the
  reference that depends on that row only is the corresponding quantity of the specification:
    * the class mask: 1 at the labelled class and 0 elsewhere (an unsigned conversion of the one-bit equality of the
      label with the class number);
    * the row maximum: the maximum-reduction over the classes from minus infinity, then the maximum with minus infinity;
    * the negated log-probability: minus the sum over the classes of (shifted score minus log of the sum of the
      exponentials of the shifted scores) times the mask;
    * the gradient norm: the sum over the classes of |1 / (1 + exp (-score)) - target| times the mask, and its bin word:
      the floor of thirty times it, converted to an integer word and clipped to [0, 29].
-/
import proofs.«133772_j21406117003629_2_alg».proof.Proof.RefRead
import proofs.«133772_j21406117003629_2_alg».proof.Proof.Spec
import Idealize.ShloMosaic.Lib.ValueIdx

noncomputable section

namespace Cert.ReferenceIdeal.RefValue

open Cert.BinLoss Cert.ReferenceIdeal Cert.ReferenceIdeal.Gen Cert.ReferenceIdeal.ReadP Idealize.ShloMosaic Idealize.ShloMosaic.ValueIdx

/-- The scores (or targets) array as rows of classes. -/
abbrev Pof (x : (⟨S1048576x128, .f32⟩ : BufTy).Contents (Elt Ideal)) : Fin NR → Fin NC → EReal := fun r c => x (ix2 r c)
/-- The labels array as a family of words. -/
abbrev Lof (x : (⟨S1048576, .i32⟩ : BufTy).Contents (Elt Ideal)) : Fin NR → BitVec 32 := fun r => x (ix1 r)

variable (x0 x1 : (⟨S1048576x128, .f32⟩ : BufTy).Contents (Elt Ideal)) (x2 : (⟨S1048576, .i32⟩ : BufTy).Contents (Elt Ideal))

/-! ## The class mask -/

/-- A one-bit comparison word read as a number is the indicator of the equality. -/
theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  by_cases h : a = b
  · simp [IntOp.cmpi, h]
  · simp [IntOp.cmpi, h]

/-- The mask stage at (r, c): 1 where the row's label is the class, 0 elsewhere. -/
theorem v0_at (r : Fin NR) (c : Fin NC) : val_main_v0 (F := Ideal) x2 (ix2 r c) = hot (x2 (ix1 r)) c := by
  rw [val_main_v0_apply, val_main_call0_v4_apply, val_main_call0_v2_apply, val_main_call0_v0_apply,
    val_main_call0_v3_apply, val_main_call0_v1_apply, uitofp_cmpi_eq]
  have h1 : idx_main_call0_v0 (idx_main_call0_v2 (ix2 r c)) = ix1 r := by
    funext a; match a with | ⟨0, _⟩ => rfl
  rw [h1]
  rfl

/-! ## The row maximum and the log-softmax -/

/-- The host's maximum-reduction over the classes, at row r: the fold of max over the row from the initial value. -/
theorem hostReduceMax_row (x : FVec Ideal S1048576x128 .f32) (init : FVec Ideal S_ .f32) (r : Fin NR) :
    Host.reduce FloatOps.maximumf x init reducesTo_S1048576x128_S1048576_d1 h_S_ (ix1 r)
      = (Finset.univ : Finset (Fin NC)).fold max (init (Shape.Idx.first h_S_)) (fun c => x (ix2 r c)) := by
  have h : S1048576x128.Reduces [1] S1048576 := by decide
  rw [Host.reduce_eq_fold_single FloatOps.maximumf x init reducesTo_S1048576x128_S1048576_d1 h h_S_ (ix1 r)]
  show (Finset.univ : Finset (Fin NC)).fold max _ _ = _
  congr 1
  funext c
  show x (h.lift (ix1 r) c) = x (ix2 r c)
  congr 1
  funext a
  apply Fin.ext
  match a with
  | ⟨0, _⟩ => rfl
  | ⟨1, _⟩ => rfl

/-- The pattern 0xFF800000 is minus infinity. -/
theorem ofBits_neg_inf : Ideal.ofBits .f32 0xFF800000#32 = ⊥ := by simp [Ideal.ofBits, Ideal.ieee]

/-- The row-maximum stage at row r is the fold of max from minus infinity over the row. -/
theorem rowmax_at (r : Fin NR) : val_main_call1_v2 (F := Ideal) x0 (ix1 r) = rowMax (Pof x0 r) := by
  have hm : val_main_call1_v0 (F := Ideal) x0 (ix1 r) = rowMax (Pof x0 r) := by
    have h := hostReduceMax_row x0 (val_main_call1_cst (F := Ideal)) r
    rw [val_main_call1_cst_apply] at h
    exact h.trans (by rw [show FloatOps.ofBits (F := Ideal) .f32 0xFF800000#32 = ⊥ from ofBits_neg_inf]; rfl)
  rw [val_main_call1_v2_apply, val_main_call1_v1_apply, val_main_call1_cst_0_apply, hm]
  show max (Ideal.ofBits .f32 0xFF800000#32) _ = _
  rw [ofBits_neg_inf, max_eq_right bot_le]

/-- The shifted score at (r, c). -/
theorem shifted_at (r : Fin NR) (c : Fin NC) :
    val_main_call1_v5 (F := Ideal) x0 (ix2 r c) = x0 (ix2 r c) - rowMax (Pof x0 r) := by
  rw [val_main_call1_v5_apply, val_main_call1_v4_apply, val_main_call1_v3_apply]
  have h1 : idx_main_call1_v3 (idx_main_call1_v4 (ix2 r c)) = ix1 r := by
    funext a; match a with | ⟨0, _⟩ => rfl
  rw [h1, rowmax_at]
  rfl

/-- The sum of the exponentials of the shifted scores of row r. -/
theorem sumexp_at (r : Fin NR) :
    val_main_call1_v7 (F := Ideal) x0 (ix1 r) = 0 + ∑ c : Fin NC, Ideal.exp (x0 (ix2 r c) - rowMax (Pof x0 r)) := by
  rw [val_main_call1_v7_apply, val_main_call1_cst_1_apply]
  show Ideal.ofBits .f32 0x00000000#32 + _ = _
  rw [Ideal.ofBits_zero_f32]
  congr 1
  refine Finset.sum_congr rfl fun c _ => ?_
  have h1 : idx_main_call1_v7 (ix1 r) c = ix2 r c := by
    funext a; match a with | ⟨0, _⟩ => rfl | ⟨1, _⟩ => rfl
  rw [h1, val_main_call1_v6_apply, shifted_at]
  rfl

/-- The log-softmax at (r, c). -/
theorem logsoftmax_at (r : Fin NR) (c : Fin NC) :
    val_main_v1 (F := Ideal) x0 (ix2 r c)
      = (x0 (ix2 r c) - rowMax (Pof x0 r)) - Ideal.log (0 + ∑ c' : Fin NC, Ideal.exp (x0 (ix2 r c') - rowMax (Pof x0 r))) := by
  rw [val_main_v1_apply, shifted_at, val_main_call1_v10_apply, val_main_call1_v9_apply, val_main_call1_v8_apply]
  have h1 : idx_main_call1_v8 (idx_main_call1_v10 (ix2 r c)) = ix1 r := by
    funext a; match a with | ⟨0, _⟩ => rfl
  rw [h1, sumexp_at]
  rfl

/-- The masked log-softmax summed over the classes of row r. -/
theorem v3_at (r : Fin NR) :
    val_main_v3 (F := Ideal) x0 x2 (ix1 r)
      = 0 + ∑ c : Fin NC, ((x0 (ix2 r c) - rowMax (Pof x0 r))
          - Ideal.log (0 + ∑ c' : Fin NC, Ideal.exp (x0 (ix2 r c') - rowMax (Pof x0 r)))) * hot (x2 (ix1 r)) c := by
  rw [val_main_v3_apply, val_main_cst_apply]
  show Ideal.ofBits .f32 0x00000000#32 + _ = _
  rw [Ideal.ofBits_zero_f32]
  congr 1
  refine Finset.sum_congr rfl fun c _ => ?_
  have h1 : idx_main_v3 (ix1 r) c = ix2 r c := by
    funext a; match a with | ⟨0, _⟩ => rfl | ⟨1, _⟩ => rfl
  rw [h1, val_main_v2_apply, logsoftmax_at, v0_at]
  rfl

/-- The negated log-probability stage at row r is the specification's. -/
theorem negLogp_at (r : Fin NR) : val_main_v45 (F := Ideal) x0 x2 (ix1 r) = negLogpR (Pof x0 r) (Lof x2 r) := by
  rw [val_main_v45_apply, v3_at]
  rfl

/-! ## The gradient norm and its bin word -/

/-- The logistic quotient minus the target, in absolute value, at (r, c). -/
theorem v11_at (r : Fin NR) (c : Fin NC) :
    val_main_v11 (F := Ideal) x0 x1 (ix2 r c)
      = max (Ideal.div one (one + Ideal.exp (-(x0 (ix2 r c)))) - x1 (ix2 r c))
          (-(Ideal.div one (one + Ideal.exp (-(x0 (ix2 r c)))) - x1 (ix2 r c))) := by
  rw [val_main_v11_apply, val_main_v10_apply, val_main_v9_apply, val_main_v8_apply, val_main_cst_1_apply,
    val_main_v7_apply, val_main_v6_apply, val_main_cst_0_apply, val_main_v5_apply, val_main_v4_apply]
  rfl

/-- The gradient-norm stage at row r is the specification's. -/
theorem grad_at (r : Fin NR) :
    val_main_v13 (F := Ideal) x0 x1 x2 (ix1 r) = gradR (Pof x0 r) (Pof x1 r) (Lof x2 r) := by
  rw [val_main_v13_apply, val_main_cst_2_apply]
  show Ideal.ofBits .f32 0x00000000#32 + _ = _
  rw [Ideal.ofBits_zero_f32]
  unfold gradR
  congr 1
  refine Finset.sum_congr rfl fun c _ => ?_
  have h1 : idx_main_v13 (ix1 r) c = ix2 r c := by
    funext a; match a with | ⟨0, _⟩ => rfl | ⟨1, _⟩ => rfl
  rw [h1, val_main_v12_apply, v11_at, v0_at]
  rfl

/-- The clipped bin word stage at row r is the specification's bin word of the gradient norm. -/
theorem binWord_at (r : Fin NR) :
    val_main_v18 (F := Ideal) x0 x1 x2 (ix1 r) = binWord (gradR (Pof x0 r) (Pof x1 r) (Lof x2 r)) := by
  rw [val_main_v18_apply, val_main_call2_v4_apply, val_main_call2_v3_apply, val_main_c_4_apply,
    val_main_call2_v2_apply, val_main_call2_v1_apply, val_main_call2_v0_apply, val_main_c_apply,
    val_main_v17_apply, val_main_v16_apply, val_main_v15_apply, val_main_v14_apply, val_main_cst_3_apply, grad_at]
  rfl

end Cert.ReferenceIdeal.RefValue

end
-- ==== Proof.Consts.lean ====
/-
  The two float literals that the algebra evaluates: the pattern 0x3F800000 is the number one and the pattern
  0x49800000 is 2^20 = 1048576, the number of rows.  (The third literal, thirty, occurs identically on both sides and
  is never evaluated.)
-/
import proofs.«133772_j21406117003629_2_alg».proof.Proof.Spec

noncomputable section

namespace Cert.BinLoss

open Idealize.ShloMosaic

/-- The pattern 0x3F800000: sign 0, exponent 127, fraction 0, that is 2^23 · 2^(-23) = 1. -/
theorem one_eq : one = 1 := by
  unfold one
  simp [Ideal.ofBits, Ideal.ieee]
  rw [← EReal.coe_mul, ← EReal.coe_one]
  congr 1
  norm_num

/-- The pattern 0x49800000: sign 0, exponent 147, fraction 0, that is 2^23 · 2^(-3) = 2^20. -/
theorem tot_eq : tot = ((1048576 : ℝ) : EReal) := by
  unfold tot
  simp [Ideal.ofBits, Ideal.ieee]
  rw [← EReal.coe_mul]
  congr 1
  norm_num

/-- One, as the coercion of the real number one. -/
theorem one_eq_coe : one = ((1 : ℝ) : EReal) := by rw [one_eq, EReal.coe_one]

end Cert.BinLoss

end
-- ==== Proof.BinWord.lean ====
/-
  The bin word: a word clipped below by 0 and above by 29 (as signed integers) is, read unsigned, below 30.  Hence the
  bin index of a gradient norm is the bin word itself.
-/
import proofs.«133772_j21406117003629_2_alg».proof.Proof.Spec

noncomputable section

namespace Cert.BinLoss

open Idealize.ShloMosaic

/-- Clipping a word to `[0, 29]`: the signed maximum with 0 is non-negative, the signed minimum of 29 with it is at
    most 29, and a non-negative signed value is the unsigned one. -/
theorem clip_toNat_lt (w : BitVec 32) : (IntOp.minsi 29#32 (IntOp.maxsi 0#32 w)).toNat < 30 := by
  unfold IntOp.minsi IntOp.maxsi
  by_cases h1 : w.slt 0#32
  · rw [if_pos h1]; decide
  · rw [if_neg h1]
    by_cases h2 : (29#32).slt w
    · rw [if_pos h2]; decide
    · rw [if_neg h2]
      rw [BitVec.slt_iff_toInt_lt] at h1 h2
      have h3 := BitVec.toInt_eq_toNat_cond w
      have h4 : (0#32 : BitVec 32).toInt = 0 := by decide
      have h5 : (29#32 : BitVec 32).toInt = 29 := by decide
      have hw := w.isLt
      rw [h4] at h1
      rw [h5] at h2
      split_ifs at h3 <;> omega

theorem binWord_lt (g : EReal) : (binWord g).toNat < 30 := clip_toNat_lt _

theorem binOf_eq (g : EReal) : binOf g = ⟨(binWord g).toNat, binWord_lt g⟩ := by
  unfold binOf
  rw [dif_pos (binWord_lt g)]

theorem binOf_val (g : EReal) : (binOf g).val = (binWord g).toNat := by rw [binOf_eq]

theorem ofNat_binOf (g : EReal) : BitVec.ofNat 32 (binOf g).val = binWord g := by
  rw [binOf_val, BitVec.ofNat_toNat, BitVec.setWidth_eq]

end Cert.BinLoss

end
-- ==== Proof.RefCounts.lean ====
/-
  The reference program's per-bin stages.  The scatter-add of ones at the rows' bin words onto a zero array is, at
  bin b, the number of rows whose bin is b: a row's update lands at the index its (unclamped, signed) bin word names,
  which is inside [0, 29] for every row, so "lands at b" is "the row's bin is b", and the sum of ones over the rows
  landing at b is the sum over all rows of the indicator.  From the counts: the number of non-empty bins (the integer
  sum of the widened comparison bits, read back as a number) and the per-bin weight N / max (count) 1 on the non-empty
  bins.  Last, the index the gather reads at row r — select (bin < 0, bin + 30, bin) — is the row's bin word, a
  non-negative word.
-/
import proofs.«133772_j21406117003629_2_alg».proof.Proof.RefRows
import proofs.«133772_j21406117003629_2_alg».proof.Proof.Consts
import proofs.«133772_j21406117003629_2_alg».proof.Proof.BinWord

noncomputable section

namespace Cert.ReferenceIdeal.RefValue

open Cert.BinLoss Cert.ReferenceIdeal Cert.ReferenceIdeal.Gen Cert.ReferenceIdeal.ReadP Idealize.ShloMosaic Idealize.ShloMosaic.ValueIdx

variable (x0 x1 : (⟨S1048576x128, .f32⟩ : BufTy).Contents (Elt Ideal)) (x2 : (⟨S1048576, .i32⟩ : BufTy).Contents (Elt Ideal))

/-! ## Rank-one indices -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A word below thirty read signed is the word read unsigned. -/
theorem toInt_of_small {w : BitVec 32} (h : w.toNat < 30) : w.toInt = (w.toNat : Int) := by
  rw [BitVec.toInt_eq_toNat_cond, if_pos (by omega)]

/-! ## Where the scatter's updates land -/

/-- The scatter record of the program: updates [N] at indices [N, 1] into an operand [30]. -/
abbrev sd : ScatterDims Cert.ReferenceIdeal.S30 S1048576x1 S1048576 := scatter_S30_S1048576x1_S1048576_n_0_0_1

/-- The start of row r's update on the operand's one axis: its index word, read signed. -/
theorem scatter_start (idx : IVec S1048576x1 32) (r : Fin NR) (a : Fin 1) :
    sd.start (ix1 r) idx a = (idx (ix2 r 0)).toInt := by
  obtain rfl : a = 0 := Subsingleton.elim _ _
  unfold ScatterDims.start
  rw [dif_pos (show (0 : Fin 1) ∈ sd.scatterDimsToOperandDims from List.mem_singleton.mpr rfl)]
  have hsi : sd.siIdx (ix1 r) ⟨List.idxOf (0 : Fin 1) sd.scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- The operand's one axis is an inserted window axis: no window coordinate. -/
theorem scatter_window (r : Fin NR) (a : Fin 1) : sd.window (ix1 r) a = 0 := by
  obtain rfl : a = 0 := Subsingleton.elim _ _
  unfold ScatterDims.window
  have hk : ¬ (0 : Fin 1) ∈ sd.sKept := by decide
  rw [dif_neg hk]

/-- Row r's update lands at bin b exactly when its index word, a word below thirty, is b. -/
theorem scatter_lands (idx : IVec S1048576x1 32) (r : Fin NR) (b : Fin NB) (hlt : (idx (ix2 r 0)).toNat < 30) :
    sd.resultIdx? (ix1 r) idx = some (ix1 b) ↔ (idx (ix2 r 0)).toNat = b.val := by
  have hs : ∀ a : Fin 1, sd.start (ix1 r) idx a + (sd.window (ix1 r) a : Int) = ((idx (ix2 r 0)).toNat : Int) := by
    intro a
    rw [scatter_start, scatter_window, toInt_of_small hlt]
    simp
  have hc : ∀ a : Fin 1, 0 ≤ sd.start (ix1 r) idx a + (sd.window (ix1 r) a : Int) ∧
      sd.start (ix1 r) idx a + (sd.window (ix1 r) a : Int) < (Cert.ReferenceIdeal.S30.size a : Int) := by
    intro a
    rw [hs a]
    obtain rfl : a = 0 := Subsingleton.elim _ _
    refine ⟨by omega, ?_⟩
    show ((idx (ix2 r 0)).toNat : Int) < ((30 : Nat) : Int)
    omega
  unfold ScatterDims.resultIdx?
  rw [dif_pos hc]
  constructor
  · intro h
    have h2 := congrArg (fun f : Cert.ReferenceIdeal.S30.Idx => (f 0).val) (Option.some.inj h)
    have h3 : (sd.start (ix1 r) idx 0 + (sd.window (ix1 r) 0 : Int)).toNat = b.val := h2
    rw [hs 0] at h3
    simpa using h3
  · intro h
    congr 1
    funext a
    obtain rfl : a = 0 := Subsingleton.elim _ _
    apply Fin.ext
    show (sd.start (ix1 r) idx 0 + (sd.window (ix1 r) 0 : Int)).toNat = b.val
    rw [hs 0]
    simpa using h

/-! ## The counts -/

/-- The index word the scatter reads for row r is the row's bin word. -/
theorem v21_at (r : Fin NR) :
    val_main_v21 (F := Ideal) x0 x1 x2 (ix2 r 0) = binWord (gradR (Pof x0 r) (Pof x1 r) (Lof x2 r)) := by
  rw [val_main_v21_apply]
  have h1 : idx_main_v21 (ix2 r (0 : Fin 1)) = ix1 r := by
    funext a; match a with | ⟨0, _⟩ => rfl
  rw [h1, binWord_at]

/-- Row r's update lands at bin b exactly when the row's bin is b. -/
theorem lands_iff (r : Fin NR) (b : Fin NB) :
    sd.resultIdx? (ix1 r) (val_main_v21 (F := Ideal) x0 x1 x2) = some (ix1 b)
      ↔ binR (Pof x0) (Pof x1) (Lof x2) r = b := by
  have hw := v21_at x0 x1 x2 r
  rw [scatter_lands _ r b (by rw [hw]; exact binWord_lt _), hw]
  unfold binR
  rw [Fin.ext_iff, binOf_val]

/-- The host's accumulating scatter at the ideal values, at an index: the operand's element plus the sum of the
    updates that land there. -/
theorem scatterAdd_ideal_apply {s si su : Shape} (d : ScatterDims s si su) {w : Nat} (x : FVec Ideal s .f32)
    (idx : IVec si w) (upd : FVec Ideal su .f32) (i : s.Idx) :
    Host.scatterAdd d x idx upd i = x i + ∑ j ∈ Finset.univ.filter (fun j => d.resultIdx? j idx = some i), upd j := rfl

/-- The scatter-add stage at bin b is the number of rows in bin b. -/
theorem counts_at (b : Fin NB) :
    val_main_v22 (F := Ideal) x0 x1 x2 (ix1 b) = counts (binR (Pof x0) (Pof x1) (Lof x2)) b := by
  rw [show val_main_v22 (F := Ideal) x0 x1 x2 (ix1 b) = _ from scatterAdd_ideal_apply _ _ _ _ _]
  rw [val_main_v20_apply, val_main_cst_6_apply]
  show Ideal.ofBits .f32 0x00000000#32 + _ = _
  rw [Ideal.ofBits_zero_f32, zero_add, Finset.sum_filter, sum_idx1]
  unfold counts
  refine Finset.sum_congr rfl fun r _ => ?_
  unfold ind
  rw [val_main_v19_apply, val_main_cst_5_apply]
  by_cases h : binR (Pof x0) (Pof x1) (Lof x2) r = b
  · rw [if_pos ((lands_iff x0 x1 x2 r b).mpr h), if_pos h]
    exact one_eq
  · rw [if_neg (mt (lands_iff x0 x1 x2 r b).mp h), if_neg h]

/-! ## The number of non-empty bins and the per-bin weight -/

/-- The integer sum the program takes of the widened comparison bits. -/
def redR : IVec Cert.BinLoss.S30 32 → IVec Cert.BinLoss.S0 32 :=
  fun x => Host.reduce IntOp.addi x (constantI S_ 32 0#32) reducesTo_S30_S_d0 h_S_

/-- The widened comparison bits: bin by bin, "the count is positive" as a 32-bit word. -/
theorem v25_eq :
    val_main_v25 (F := Ideal) x0 x1 x2
      = fun j => (Ideal.cmp .ogt (counts (binR (Pof x0) (Pof x1) (Lof x2)) (j 0)) 0).setWidth 32 := by
  funext j
  obtain ⟨a, rfl⟩ : ∃ a, j = ix1 a := ⟨j 0, eq_ix1 j⟩
  rw [val_main_v25_apply, val_main_v24_apply, val_main_v23_apply, val_main_cst_7_apply, counts_at]
  show (Ideal.cmp .ogt _ (Ideal.ofBits .f32 0x00000000#32)).setWidth 32 = _
  rw [Ideal.ofBits_zero_f32]

/-- The number-of-non-empty-bins stage is the specification's. -/
theorem nonempty_at :
    val_main_v27 (F := Ideal) x0 x1 x2 ix0 = nonempty redR (counts (binR (Pof x0) (Pof x1) (Lof x2))) := by
  rw [val_main_v27_apply]
  unfold val_main_v26
  rw [v25_eq]
  rfl

/-- The per-bin weight stage at bin b is the specification's. -/
theorem weight_at (b : Fin NB) :
    val_main_v34 (F := Ideal) x0 x1 x2 (ix1 b) = weight (counts (binR (Pof x0) (Pof x1) (Lof x2))) b := by
  rw [val_main_v34_apply, val_main_v29_apply, val_main_v28_apply, val_main_cst_9_apply, val_main_v33_apply,
    val_main_v32_apply, val_main_cst_11_apply, val_main_v31_apply, val_main_v30_apply, val_main_cst_10_apply,
    val_main_call3_v1_apply, val_main_call3_v0_apply, val_main_cst_12_apply, counts_at]
  unfold weight
  show Scalar.select (Ideal.cmp .ogt _ (Ideal.ofBits .f32 0x00000000#32))
      (Ideal.div (Ideal.ofBits .f32 0x49800000#32) (max _ (Ideal.ofBits .f32 0x3F800000#32)))
      (Ideal.ofBits .f32 0x00000000#32) = _
  rw [Ideal.ofBits_zero_f32]
  rfl

/-! ## The index the gather reads -/

/-- The gather's start index for row r — the bin word, or the bin word plus thirty were it negative — is the bin
    word: a word below thirty is not negative. -/
theorem v40_at (r : Fin NR) :
    val_main_v40 (F := Ideal) x0 x1 x2 (ix2 r 0) = binWord (gradR (Pof x0 r) (Pof x1 r) (Lof x2 r)) := by
  rw [val_main_v40_apply]
  have h1 : idx_main_v40 (ix2 r (0 : Fin 1)) = ix1 r := by
    funext a; match a with | ⟨0, _⟩ => rfl
  rw [h1, val_main_v39_apply, val_main_v36_apply, val_main_v35_apply, val_main_c_13_apply, binWord_at]
  have hlt := binWord_lt (gradR (Pof x0 r) (Pof x1 r) (Lof x2 r))
  have hneg : IntOp.cmpi .slt (binWord (gradR (Pof x0 r) (Pof x1 r) (Lof x2 r))) 0#32 = 0#1 := by
    have h0 : ¬ ((binWord (gradR (Pof x0 r) (Pof x1 r) (Lof x2 r))).toNat : Int) < 0 := by omega
    simp [IntOp.cmpi, BitVec.slt, toInt_of_small hlt, h0]
  rw [hneg, select_zero]

end Cert.ReferenceIdeal.RefValue

end
-- ==== Proof.RefGather.lean ====
/-
  The reference's table lookup read at an index.  The gather takes one entry of a table of 30 per row: its start
  indices are a column `[1048576, 1]` of words, the index vector lies along the second axis (of size one), the one
  operand axis is collapsed and no axis is a batching or an offset axis.  So result row `r` is the table at the word
  `idx[r, 0]` read as a signed integer and clamped into `[0, 29]`; for a word that is a bin index the clamp does nothing.
-/
import proofs.«133772_j21406117003629_2_alg».proof.Proof.Gen.ReferenceIdeal
import Idealize.ShloMosaic.Lib.ValueIdx

noncomputable section

namespace Cert.ReferenceIdeal.RefValue

open Cert.ReferenceIdeal Cert.ReferenceIdeal.Gen
open Idealize.ShloMosaic

/-- The gather read at row `r`: the table at the start index `idx[r, 0]`, read signed and clamped into `[0, 29]`. -/
theorem gather_bins_apply {α : Type} {w : Nat} (x : S30.Idx → α) (idx : IVec S1048576x1 w) (r : Fin 1048576) :
    Host.gather gather_S30_S1048576x1_S1048576_n_0_n_n_0_1_1 x idx (ValueIdx.ix1 r)
      = x (ValueIdx.ix1 ⟨min (idx (ValueIdx.ix2 r 0)).toInt.toNat (30 - 1), by omega⟩) := by
  unfold Host.gather
  congr 1
  funext a
  obtain rfl : a = 0 := Subsingleton.elim _ _
  refine Fin.ext ?_
  show gather_S30_S1048576x1_S1048576_n_0_n_n_0_1_1.start (ValueIdx.ix1 r) idx 0
    + gather_S30_S1048576x1_S1048576_n_0_n_n_0_1_1.batchCoord (ValueIdx.ix1 r) 0
    + gather_S30_S1048576x1_S1048576_n_0_n_n_0_1_1.offCoord (ValueIdx.ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S30_S1048576x1_S1048576_n_0_n_n_0_1_1.startIndexMap from
    List.mem_singleton.mpr rfl)]
  have hsi : gather_S30_S1048576x1_S1048576_n_0_n_n_0_1_1.siIdx (ValueIdx.ix1 r)
      ⟨List.idxOf (0 : Fin 1) gather_S30_S1048576x1_S1048576_n_0_n_n_0_1_1.startIndexMap,
        List.idxOf_lt_length_iff.2 (List.mem_singleton.mpr rfl)⟩ = ValueIdx.ix2 r 0 := by
    funext b; refine Fin.ext ?_
    match b with
    | ⟨0, _⟩ => rfl
    | ⟨1, _⟩ => rfl
  rw [hsi]
  rfl

/-- For a start index that is the word of a bin `b`, the gather reads the table at `b`: a word below 2^31 read
    signed is the number itself, and `b ≤ 29`. -/
theorem gather_bins_apply_bin {α : Type} (x : S30.Idx → α) (idx : IVec S1048576x1 32) (r : Fin 1048576) (b : Fin 30)
    (hb : idx (ValueIdx.ix2 r 0) = BitVec.ofNat 32 b.val) :
    Host.gather gather_S30_S1048576x1_S1048576_n_0_n_n_0_1_1 x idx (ValueIdx.ix1 r) = x (ValueIdx.ix1 b) := by
  rw [gather_bins_apply]
  congr 2
  apply Fin.ext
  show min (idx (ValueIdx.ix2 r 0)).toInt.toNat (30 - 1) = b.val
  rw [hb]
  have hlt : b.val < 30 := b.isLt
  have h1 : (BitVec.ofNat 32 b.val).toNat = b.val := by
    rw [BitVec.toNat_ofNat]; omega
  have h2 : (BitVec.ofNat 32 b.val).toInt = (b.val : Int) := by
    rw [BitVec.toInt_eq_toNat_of_lt (by rw [h1]; omega), h1]
  rw [h2]
  omega

end Cert.ReferenceIdeal.RefValue

end
-- ==== Proof.RefValue.lean ====
/-
  The reference's value.  At row r the summand of the final sum is the row's negated log-probability times the weight of
  the row's bin over max (number of non-empty bins) 1, over N: the gather reads the per-bin weight at the row's bin word,
  a bin index.  The final sum over the rows, onto a zero, is the specification's row-by-row loss; and the run's result
  term is that stage of the argument arrays.
-/
import proofs.«133772_j21406117003629_2_alg».proof.Proof.RefCounts
import proofs.«133772_j21406117003629_2_alg».proof.Proof.RefGather

noncomputable section

namespace Cert.ReferenceIdeal.RefValue

open Cert.BinLoss Cert.ReferenceIdeal Cert.ReferenceIdeal.Gen Cert.ReferenceIdeal.ReadP Idealize.ShloMosaic Idealize.ShloMosaic.ValueIdx
open Idealize.ShloMosaic.TcCoe Idealize.SL.Sem

variable (x0 x1 : (⟨S1048576x128, .f32⟩ : BufTy).Contents (Elt Ideal)) (x2 : (⟨S1048576, .i32⟩ : BufTy).Contents (Elt Ideal))

/-- The gather stage at row r is the weight of the row's bin. -/
theorem gather_at (r : Fin NR) :
    val_main_v41 (F := Ideal) x0 x1 x2 (ix1 r)
      = weight (counts (binR (Pof x0) (Pof x1) (Lof x2))) (binR (Pof x0) (Pof x1) (Lof x2) r) := by
  unfold val_main_v41
  rw [gather_bins_apply_bin _ _ r (binR (Pof x0) (Pof x1) (Lof x2) r)
    ((v40_at x0 x1 x2 r).trans (ofNat_binOf _).symm), weight_at]

/-- The summand of the final sum at row r. -/
theorem v48_at (r : Fin NR) :
    val_main_v48 (F := Ideal) x0 x1 x2 (ix1 r)
      = Ideal.div (aR (Pof x0) (Lof x2) r
          * Ideal.div (weight (counts (binR (Pof x0) (Pof x1) (Lof x2))) (binR (Pof x0) (Pof x1) (Lof x2) r))
              (max (nonempty redR (counts (binR (Pof x0) (Pof x1) (Lof x2)))) one)) tot := by
  rw [val_main_v48_apply, val_main_v47_apply, val_main_cst_16_apply, val_main_v46_apply, negLogp_at,
    val_main_v44_apply, gather_at, val_main_v43_apply, val_main_v42_apply, val_main_cst_15_apply]
  have h0 : idx_main_v43 (ix1 r) = ix0 := rfl
  rw [h0, nonempty_at]
  rfl

/-- The reference's result stage, of the argument arrays, is the specification's row-by-row loss. -/
theorem ref_value_val : val_main_v49 (F := Ideal) x0 x1 x2 ix0 = lossRef redR (Pof x0) (Pof x1) (Lof x2) := by
  rw [val_main_v49_apply, val_main_cst_17_apply]
  show Ideal.ofBits .f32 0x00000000#32 + _ = _
  rw [Ideal.ofBits_zero_f32, sum_idx1]
  unfold lossRef lossR
  exact congrArg (fun s => (0 : EReal) + s) (Finset.sum_congr rfl fun r _ => v48_at x0 x1 x2 r)

/-- The run's result term, read at its one index, is the specification's loss of the launch's argument arrays. -/
theorem ref_value (m : (ℓ : Loc nD τ sig) → Buf (Elt Ideal) ℓ) (c : Dev nD) :
    Cert.ReferenceIdeal.ValueP.res_main_v49 (F := Ideal) m c ix0
      = lossRef redR (Pof (m ((c.tc : Thread nD τ).loc main_arg0))) (Pof (m ((c.tc : Thread nD τ).loc main_arg1)))
          (Lof (m ((c.tc : Thread nD τ).loc main_arg2))) := by
  rw [val_main_v49_eq]
  exact ref_value_val _ _ _

end Cert.ReferenceIdeal.RefValue

end
-- ==== Proof.KCases.lean ====
/-
  What the kernel body leaves behind at one grid point, read at an index.

  The body keeps two [8,128] accumulators in scratch memory (bin counts and per-bin sums of -log p). At every point it
  adds the tile's contribution into ROW 0 of each (a [1,128] store at the origin, its operand the row it has just
  loaded); at the first point of a core's sweep it first stores zeros into the whole accumulator; at the last point it
  then copies each accumulator, whole, into its output block. So row 0 of an accumulator after a point is the
  row-update payload applied to row 0 before the point (to the zero row at a first point), and the output block of a
  last point is the accumulator after that point, recast from [8,128] to [1,8,128].
-/
import proofs.«133772_j21406117003629_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of an [8,128] accumulator, as the [1,128] vector a load of that row returns. -/
def row0 (xs : Vec F S8x128 .f32) : Vec F S1x128 .f32 := fun y => xs (ix2 0 (y 1))

/-- A load of row 0 through the [1,128] rectangle at the origin reads that row. -/
theorem ld_row0 (xs : Vec F S8x128 .f32) :
    View.ld xs (Rect.unit (s := S8x128) ![0, 0] S1x128.size inb_S8x128_S1x128_0_0) = row0 xs := by
  funext y
  show xs _ = xs _
  congr 1
  funext a
  apply Fin.ext
  match a with
  | ⟨0, _⟩ => show 0 + 1 * (y 0).val = 0; have : (y 0).val < 1 := (y 0).isLt; omega
  | ⟨1, _⟩ => show 0 + 1 * (y 1).val = (y 1).val; omega

/-! ## A point in the middle of a sweep: row 0 is updated in place -/

theorem soutB0_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : ¬cond0_1 i)
    (x0 x1 : Vec F S4096x128 .f32) (x2 : Vec F S4096x1 .i32) (xs0 xs1 : Vec F S8x128 .f32) (q : Fin 128) :
    sout0_B_0 c i arg2 harg2 arg3 harg3 arg4 harg4 arg5 harg5 arg6 harg6 arg7 harg7 arg8 harg8 hc0 hc1 x0 x1 x2 xs0 xs1 (ix2 0 q)
      = k0_pay2 (k0_pay10 x0 x1 x2) (row0 xs0) (ix2 0 q) := by
  unfold sout0_B_0
  unfold kernelRun0_B
  dsimp only
  sl_unfold_words
  refine (View.read_writes_cons_rows_of_mem arg7.view _ inb_S8x128_S1x128_0_0 _ [] (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [ld_row0]

theorem soutB1_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : ¬cond0_1 i)
    (x0 x1 : Vec F S4096x128 .f32) (x2 : Vec F S4096x1 .i32) (xs0 xs1 : Vec F S8x128 .f32) (q : Fin 128) :
    sout0_B_1 c i arg2 harg2 arg3 harg3 arg4 harg4 arg5 harg5 arg6 harg6 arg7 harg7 arg8 harg8 hc0 hc1 x0 x1 x2 xs0 xs1 (ix2 0 q)
      = k0_pay3 (k0_pay9 x0 x2) (k0_pay10 x0 x1 x2) (row0 xs1) (ix2 0 q) := by
  unfold sout0_B_1
  unfold kernelRun0_B
  dsimp only
  sl_unfold_words
  refine (View.read_writes_cons_rows_of_mem arg8.view _ inb_S8x128_S1x128_0_0 _ [] (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [ld_row0]

/-! ## The last point of a sweep: the same update, then the copy out -/

theorem soutC0_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 x1 : Vec F S4096x128 .f32) (x2 : Vec F S4096x1 .i32) (xs0 xs1 : Vec F S8x128 .f32) (q : Fin 128) :
    sout0_C_0 c i arg2 harg2 arg3 harg3 arg4 harg4 arg5 harg5 arg6 harg6 arg7 harg7 arg8 harg8 hc0 hc1 x0 x1 x2 xs0 xs1 (ix2 0 q)
      = k0_pay2 (k0_pay10 x0 x1 x2) (row0 xs0) (ix2 0 q) := by
  unfold sout0_C_0
  unfold kernelRun0_C
  dsimp only
  sl_unfold_words
  refine (View.read_writes_cons_rows_of_mem arg7.view _ inb_S8x128_S1x128_0_0 _ [] (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [ld_row0]

theorem soutC1_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 x1 : Vec F S4096x128 .f32) (x2 : Vec F S4096x1 .i32) (xs0 xs1 : Vec F S8x128 .f32) (q : Fin 128) :
    sout0_C_1 c i arg2 harg2 arg3 harg3 arg4 harg4 arg5 harg5 arg6 harg6 arg7 harg7 arg8 harg8 hc0 hc1 x0 x1 x2 xs0 xs1 (ix2 0 q)
      = k0_pay3 (k0_pay9 x0 x2) (k0_pay10 x0 x1 x2) (row0 xs1) (ix2 0 q) := by
  unfold sout0_C_1
  unfold kernelRun0_C
  dsimp only
  sl_unfold_words
  refine (View.read_writes_cons_rows_of_mem arg8.view _ inb_S8x128_S1x128_0_0 _ [] (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [ld_row0]

/-- The count output's block at a last point is the count accumulator after that point, recast. -/
theorem outC3_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 x1 : Vec F S4096x128 .f32) (x2 : Vec F S4096x1 .i32) (xs0 xs1 : Vec F S8x128 .f32) :
    out0_C_3 c i arg2 harg2 arg3 harg3 arg4 harg4 arg5 harg5 arg6 harg6 arg7 harg7 arg8 harg8 hc0 hc1 x0 x1 x2 xs0 xs1
      = k0_pay4 (sout0_C_0 c i arg2 harg2 arg3 harg3 arg4 harg4 arg5 harg5 arg6 harg6 arg7 harg7 arg8 harg8 hc0 hc1 x0 x1 x2 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold sout0_C_0
  unfold kernelRun0_C
  dsimp only
  sl_unfold_words
  rw [View.canon_unit_zero hz3]
  simp only [View.readAt_eq_ld, View.ld_unit_zero (S := S8x128) hz2]

/-- The sum output's block at a last point is the sum accumulator after that point, recast. -/
theorem outC4_eq (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : ¬cond0_0 i) (hc1 : cond0_1 i)
    (x0 x1 : Vec F S4096x128 .f32) (x2 : Vec F S4096x1 .i32) (xs0 xs1 : Vec F S8x128 .f32) :
    out0_C_4 c i arg2 harg2 arg3 harg3 arg4 harg4 arg5 harg5 arg6 harg6 arg7 harg7 arg8 harg8 hc0 hc1 x0 x1 x2 xs0 xs1
      = k0_pay5 (sout0_C_1 c i arg2 harg2 arg3 harg3 arg4 harg4 arg5 harg5 arg6 harg6 arg7 harg7 arg8 harg8 hc0 hc1 x0 x1 x2 xs0 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold sout0_C_1
  unfold kernelRun0_C
  dsimp only
  sl_unfold_words
  rw [View.canon_unit_zero hz3]
  simp only [View.readAt_eq_ld, View.ld_unit_zero (S := S8x128) hz2]

/-! ## The first point of a sweep: zeros first, then the update of the zero row -/

theorem soutA0_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 x1 : Vec F S4096x128 .f32) (x2 : Vec F S4096x1 .i32) (q : Fin 128) :
    sout0_A_0 c i arg2 harg2 arg3 harg3 arg4 harg4 arg5 harg5 arg6 harg6 arg7 harg7 arg8 harg8 hc0 hc1 x0 x1 x2 (ix2 0 q)
      = k0_pay2 (k0_pay10 x0 x1 x2) (row0 k0_pay6) (ix2 0 q) := by
  unfold sout0_A_0
  unfold kernelRun0_A
  dsimp only
  sl_unfold_words
  refine (View.read_writes_cons_rows_of_mem VS0_0 _ inb_S8x128_S1x128_0_0 _ _ (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [View.readCov_eq_canon_ld _ _ _ (fun y => ⟨_, List.mem_singleton_self _, View.mem_set_unit_zero hz2 inb_S8x128_S8x128_0_0 y⟩),
    View.canon_unit_zero hz2, ld_row0]

theorem soutA1_row (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x1 .i32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S8x128 .f32) (harg7 : arg7.IsWhole) (arg8 : Memref sig .tc .vmem S8x128 .f32) (harg8 : arg8.IsWhole) (hc0 : cond0_0 i) (hc1 : ¬cond0_1 i)
    (x0 x1 : Vec F S4096x128 .f32) (x2 : Vec F S4096x1 .i32) (q : Fin 128) :
    sout0_A_1 c i arg2 harg2 arg3 harg3 arg4 harg4 arg5 harg5 arg6 harg6 arg7 harg7 arg8 harg8 hc0 hc1 x0 x1 x2 (ix2 0 q)
      = k0_pay3 (k0_pay9 x0 x2) (k0_pay10 x0 x1 x2) (row0 k0_pay7) (ix2 0 q) := by
  unfold sout0_A_1
  unfold kernelRun0_A
  dsimp only
  sl_unfold_words
  refine (View.read_writes_cons_rows_of_mem VS0_1 _ inb_S8x128_S1x128_0_0 _ _ (ix2 0 q) (ix2 0 q) rfl rfl rfl).trans ?_
  simp only [View.readAt_eq_ld, harg2.read_unread, harg3.read_unread, harg4.read_unread, harg7.read_unread, harg8.read_unread,
    View.ld_unit_zero (S := S4096x128) hz2, View.ld_unit_zero (S := S4096x1) hz2]
  rw [View.readCov_eq_canon_ld _ _ _ (fun y => ⟨_, List.mem_singleton_self _, View.mem_set_unit_zero hz2 inb_S8x128_S8x128_0_0 y⟩),
    View.canon_unit_zero hz2, ld_row0]

end Cert.KernelIdeal.KValue

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.TileValueA.lean ====
/-
  The vocabulary for reading the tile body's values at an index of a [4096, 128] tile.

  A reduction along the columns, read at row `r`, is a sum (or a fold of `max` from `-∞`) over the 128 classes of
  the source at `(r, c)`; a reduction along the rows, read at column `c`, is the sum over the 4096 rows of the source
  at `(r, c)`.  The equality bit of two words, widened and read as a signed number, is 1 or 0.  The pointwise
  operations read through at an index by definition.
-/
import proofs.«133772_j21406117003629_2_alg».proof.Proof.Gen.KernelIdeal.Skeleton
import proofs.«133772_j21406117003629_2_alg».proof.Proof.Spec
import proofs.«133772_j21406117003629_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.BinLoss Cert.KernelIdeal Cert.KernelIdeal.Gen Idealize.ShloMosaic Idealize.ShloMosaic.ValueIdx

/-- Row `r` of a [4096, 128] tile as a function of the class. -/
def rowOf (x : Vec Ideal S4096x128 .f32) (r : Fin 4096) : Fin NC → EReal := fun c => x (ix2 r c)

/-! ## Words -/

/-- The equality bit of two words, widened to a word and read as a signed number, is 1 or 0. -/
theorem cmpi_eq_toInt (x y : BitVec 32) :
    ((((IntOp.cmpi .eq x y).setWidth 32).toInt : ℝ) : EReal) = if y = x then 1 else 0 := by
  by_cases h : y = x
  · subst h
    rw [if_pos rfl]
    have : (IntOp.cmpi .eq y y) = 1#1 := by simp [IntOp.cmpi]
    rw [this]
    have h1 : ((1#1 : BitVec 1).setWidth 32).toInt = 1 := by decide
    rw [h1]; simp
  · rw [if_neg h]
    have : (IntOp.cmpi .eq x y) = 0#1 := by
      have hb : (x == y) = false := beq_false_of_ne fun e => h e.symm
      show BitVec.ofBool (x == y) = 0#1
      rw [hb]; rfl
    rw [this]
    have h0 : ((0#1 : BitVec 1).setWidth 32).toInt = 0 := by decide
    rw [h0]; simp

/-! ## The reductions along the columns and the rows -/

/-- The index a reduction along the columns inserts: row `r`, column `k`. -/
theorem lift_col (h : S4096x128.Reduces [1] S4096) (r : Fin 4096) (k : Fin 128) :
    h.lift (ix1 r) k = ix2 r k := by
  funext a
  match a with
  | ⟨0, _⟩ => exact Fin.ext rfl
  | ⟨1, _⟩ => exact Fin.ext rfl

/-- The index a reduction along the rows inserts: row `k`, column `c`. -/
theorem lift_row (h : S4096x128.Reduces [0] S128) (c : Fin 128) (k : Fin 4096) :
    h.lift (ix1 c) k = ix2 k c := by
  funext a
  match a with
  | ⟨0, _⟩ => exact Fin.ext rfl
  | ⟨1, _⟩ => exact Fin.ext rfl

/-- A sum along the columns at row `r` is the sum over the 128 classes. -/
theorem colSum_apply (src : FVec Ideal S4096x128 .f32) (h : S4096x128.Reduces [1] S4096) (hφ : FKind.Formats .f32)
    (hacc : (0x00000000#32 : BitVec 32) = 0x00000000#32) (r : Fin 4096) :
    multiReduction .add [1] S4096 src 0x00000000#32 h hφ hacc (ix1 r) = ∑ c : Fin 128, src (ix2 r c) := by
  refine (Ideal.multiReduction_add_single src 0x00000000#32 h hφ hacc (ix1 r)).trans ?_
  exact Finset.sum_congr rfl fun k _ => congrArg src (lift_col h r k)

/-- A sum along the rows at column `c` is the sum over the 4096 rows. -/
theorem rowSum_apply (src : FVec Ideal S4096x128 .f32) (h : S4096x128.Reduces [0] S128) (hφ : FKind.Formats .f32)
    (hacc : (0x00000000#32 : BitVec 32) = 0x00000000#32) (c : Fin 128) :
    multiReduction .add [0] S128 src 0x00000000#32 h hφ hacc (ix1 c) = ∑ r : Fin 4096, src (ix2 r c) := by
  refine (Ideal.multiReduction_add_single src 0x00000000#32 h hφ hacc (ix1 c)).trans ?_
  exact Finset.sum_congr rfl fun k _ => congrArg src (lift_row h c k)

/-- The word `0xFF800000` denotes `-∞`. -/
theorem ofBits_negInf : Ideal.ofBits .f32 0xFF800000#32 = ⊥ := by
  simp [Ideal.ofBits, Ideal.ieee]

/-- A maximum along the columns from `-∞` at row `r` is the row maximum. -/
theorem colMax_apply (src : FVec Ideal S4096x128 .f32) (h : S4096x128.Reduces [1] S4096) (hφ : FKind.Formats .f32)
    (hacc : (0xFF800000#32 : BitVec 32) = 0xFF800000#32) (r : Fin 4096) :
    multiReduction .maximumf [1] S4096 src 0xFF800000#32 h hφ hacc (ix1 r) = rowMax (rowOf src r) := by
  refine (Ideal.multiReduction_maximumf_single src 0xFF800000#32 h hφ hacc (ix1 r)).trans ?_
  have e : (src ∘ h.lift (ix1 r)) = rowOf src r := funext fun k => congrArg src (lift_col h r k)
  show (Finset.univ : Finset (Fin 128)).fold max (Ideal.ofBits .f32 0xFF800000#32) (src ∘ h.lift (ix1 r)) = _
  rw [e, ofBits_negInf]
  rfl

/-! ## The pointwise operations read at an index (all by definition) -/

section Pointwise
variable {s : Shape} {φ : FTy}

theorem exp_apply (a : FVec Ideal s φ) (i : s.Idx) : Idealize.ShloMosaic.exp a i = Ideal.exp (a i) := rfl
theorem log_apply (a : FVec Ideal s φ) (i : s.Idx) : Idealize.ShloMosaic.log a i = Ideal.log (a i) := rfl
theorem logistic_apply (a : FVec Ideal s φ) (i : s.Idx) : Idealize.ShloMosaic.logistic a i = Ideal.logistic (a i) := rfl
theorem absf_apply (a : FVec Ideal s φ) (i : s.Idx) : Idealize.ShloMosaic.absf a i = max (a i) (-(a i)) := rfl
theorem floor_apply (a : FVec Ideal s φ) (i : s.Idx) :
    Idealize.ShloMosaic.floor a i = Ideal.liftRound Int.floor (a i) := rfl
theorem fptosi_apply (w : Nat) (a : FVec Ideal s φ) (i : s.Idx) :
    Idealize.ShloMosaic.fptosi w a i = Ideal.fptosi w (a i) := rfl
theorem maxsi_apply {w : Nat} (a b : IVec s w) (i : s.Idx) :
    Idealize.ShloMosaic.maxsi a b i = IntOp.maxsi (a i) (b i) := rfl
theorem minsi_apply {w : Nat} (a b : IVec s w) (i : s.Idx) :
    Idealize.ShloMosaic.minsi a b i = IntOp.minsi (a i) (b i) := rfl
theorem cmpi_apply {w : Nat} (p : CmpIPredicate) (a b : IVec s w) (i : s.Idx) :
    Idealize.ShloMosaic.cmpi p a b i = IntOp.cmpi p (a i) (b i) := rfl
/-- The zero word denotes the number zero. -/
theorem scalar_zero : (Scalar.ofBits .f32 0x00000000#32 : Ideal .f32) = 0 := Ideal.ofBits_zero_f32

end Pointwise

end Cert.KernelIdeal.TileValue

end
-- ==== Proof.TileAcc.lean ====
/-
  The tile body's arithmetic on the accumulator rows: what one tile adds to them, their zero fill and their final copy.

  The count accumulator at column `c` gains the sum over the tile's 4096 rows of the bin-mask word at `(r, c)` read as
  a number; the log-probability accumulator gains the same sum with each term multiplied by zero minus the row's
  log-probability.  The fill of either accumulator is zero everywhere, and the copy of an [8, 128] accumulator into a
  [1, 8, 128] block reads the accumulator at the last two coordinates.
-/
import proofs.«133772_j21406117003629_2_alg».proof.Proof.TileValueA

noncomputable section

namespace Cert.KernelIdeal.TileValue

open Cert.BinLoss Cert.KernelIdeal Cert.KernelIdeal.Gen Idealize.ShloMosaic Idealize.ShloMosaic.ValueIdx

/-! ## The accumulator rows -/

/-- The count row at column `c` gains the column's sum of the mask words read as numbers. -/
theorem pay2_apply (v41 : IVec S4096x128 32) (acc : Vec Ideal S1x128 .f32) (c : Fin 128) :
    k0_pay2 (F := Ideal) v41 acc (ix2 0 c)
      = acc (ix2 0 c) + ∑ r : Fin 4096, (((v41 (ix2 r c)).toInt : ℝ) : EReal) := by
  unfold k0_pay2 k0_pay1
  simp only [shapeCast_self, addf_apply, shapeCast_a_1a_apply]
  rw [rowSum_apply]
  rfl

/-- The log-probability row at column `c` gains the column's sum of mask word times negated log-probability. -/
theorem pay3_apply (v24 : FVec Ideal S4096x1 .f32) (v41 : IVec S4096x128 32) (acc : Vec Ideal S1x128 .f32)
    (c : Fin 128) :
    k0_pay3 (F := Ideal) v24 v41 acc (ix2 0 c)
      = acc (ix2 0 c) + ∑ r : Fin 4096, (((v41 (ix2 r c)).toInt : ℝ) : EReal) * (0 - v24 (ix2 r 0)) := by
  unfold k0_pay3 k0_pay1
  simp only [shapeCast_self, addf_apply, shapeCast_a_1a_apply]
  rw [rowSum_apply]
  simp only [mulf_apply, LibColumn.broadcastTo_a1_ab_apply, subf_apply, broadcast_apply, scalar_zero]
  rfl

/-! ## The zero fill and the final copy -/

/-- The fill of the count accumulator is zero everywhere. -/
theorem pay6_apply (j : S8x128.Idx) : k0_pay6 (F := Ideal) j = 0 := by
  unfold k0_pay6
  rw [shapeCast_self]
  exact Ideal.ofBits_zero_f32

/-- The fill of the log-probability accumulator is zero everywhere. -/
theorem pay7_apply (j : S8x128.Idx) : k0_pay7 (F := Ideal) j = 0 := by
  unfold k0_pay7
  rw [shapeCast_self]
  exact Ideal.ofBits_zero_f32

/-- The [8, 128] count accumulator copied into a [1, 8, 128] block reads the accumulator at `(a, c)`. -/
theorem pay4_apply (v : Vec Ideal S8x128 .f32) (a : Fin 8) (c : Fin 128) :
    k0_pay4 (F := Ideal) v (ix3 0 a c) = v (ix2 a c) := by
  unfold k0_pay4
  exact shapeCast_ab_1ab_apply v shapeCasts_S8x128_S1x8x128 0 a c

/-- The [8, 128] log-probability accumulator copied into a [1, 8, 128] block likewise. -/
theorem pay5_apply (v : Vec Ideal S8x128 .f32) (a : Fin 8) (c : Fin 128) :
    k0_pay5 (F := Ideal) v (ix3 0 a c) = v (ix2 a c) := by
  unfold k0_pay5
  exact shapeCast_ab_1ab_apply v shapeCasts_S8x128_S1x8x128 0 a c

end Cert.KernelIdeal.TileValue

end
-- ==== Proof.KInv.lean ====
/-
  The two accumulators over a sweep of the grid.

  The 256 grid points are two sweeps of 128 (one per core-slot). Point n handles rows [4096 n, 4096 n + 4096). Write
  `tileCnt n q` for the number of rows of tile n whose bin word is lane q, and `tileSum n q` for the sum of -log p over
  those rows. At the first point of a sweep the accumulators are zeroed and the tile's addends stored; at every later
  point the tile's addends are added to row 0. So after point n, row 0 of the accumulators holds the sums of the
  addends of the points of n's sweep up to n: by induction on the point, never by enumerating the grid.
-/
import proofs.«133772_j21406117003629_2_alg».proof.Proof.KCases
import proofs.«133772_j21406117003629_2_alg».proof.Proof.TileAcc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KInv

open Cert.KernelIdeal Cert.KernelIdeal.Gen Cert.KernelIdeal.KValue Cert.KernelIdeal.TileValue

variable (m : (ℓ : Loc nD τ sig) → Buf (Elt Ideal) ℓ)

/-- Tile `n`'s count addend at lane `q`: the bin-mask words of its rows at that lane, read as numbers and summed. -/
def tileCnt (c : Dev nD) (n : ℕ) (q : Fin 128) : EReal :=
  if h : n < cfg0.N then
    ∑ r : Fin 4096, (((k0_pay10 (F := Ideal) (iblk m c 0 ⟨n, h⟩) (iblk m c 1 ⟨n, h⟩) (iblk m c 2 ⟨n, h⟩) (ix2 r q)).toInt : ℝ) : EReal)
  else 0

/-- Tile `n`'s sum addend at lane `q`: the same mask numbers times the rows' negated log-probabilities. -/
def tileSum (c : Dev nD) (n : ℕ) (q : Fin 128) : EReal :=
  if h : n < cfg0.N then
    ∑ r : Fin 4096, (((k0_pay10 (F := Ideal) (iblk m c 0 ⟨n, h⟩) (iblk m c 1 ⟨n, h⟩) (iblk m c 2 ⟨n, h⟩) (ix2 r q)).toInt : ℝ) : EReal)
      * (0 - k0_pay9 (F := Ideal) (iblk m c 0 ⟨n, h⟩) (iblk m c 2 ⟨n, h⟩) (ix2 r 0))
  else 0

/-- Row 0 of the count accumulator after point `n`. -/
def acc0 (c : Dev nD) (n : ℕ) (hn : n < cfg0.N) (q : Fin 128) : EReal := (outsAt0 m c n hn).2.2.1 (ix2 0 q)
/-- Row 0 of the sum accumulator after point `n`. -/
def acc1 (c : Dev nD) (n : ℕ) (hn : n < cfg0.N) (q : Fin 128) : EReal := (outsAt0 m c n hn).2.2.2 (ix2 0 q)

/-- At the first point of a sweep the accumulators hold that tile's addends. -/
theorem acc_first (c : Dev nD) (n : ℕ) (hn : n < cfg0.N) (h0 : n % 128 = 0) (q : Fin 128) :
    acc0 m c n hn q = 0 + tileCnt m c n q ∧ acc1 m c n hn q = 0 + tileSum m c n q := by
  have h1 : ¬(⟨n, hn⟩ : Fin cfg0.N).val % 128 = 127 := by dsimp only; omega
  unfold acc0 acc1 tileCnt tileSum
  rw [dif_pos hn, dif_pos hn, outsAt0_A m c ⟨n, hn⟩ h0 h1]
  dsimp only
  constructor
  · rw [soutA0_row, pay2_apply]
    exact congrArg (· + _) (pay6_apply _)
  · rw [soutA1_row, pay3_apply]
    exact congrArg (· + _) (pay7_apply _)

/-- At every other point the tile's addends are added to what the point before left. -/
theorem acc_next (c : Dev nD) (n : ℕ) (hn : n + 1 < cfg0.N) (h0 : ¬(n + 1) % 128 = 0) (q : Fin 128) :
    acc0 m c (n + 1) hn q = acc0 m c n (Nat.lt_of_succ_lt hn) q + tileCnt m c (n + 1) q
    ∧ acc1 m c (n + 1) hn q = acc1 m c n (Nat.lt_of_succ_lt hn) q + tileSum m c (n + 1) q := by
  unfold acc0 acc1 tileCnt tileSum
  rw [dif_pos hn, dif_pos hn]
  by_cases h1 : (n + 1) % 128 = 127
  · rw [outsAt0_C m c ⟨n + 1, hn⟩ h0 h1]
    dsimp only
    constructor
    · rw [soutC0_row, pay2_apply]; rfl
    · rw [soutC1_row, pay3_apply]; rfl
  · rw [outsAt0_B m c ⟨n + 1, hn⟩ h0 h1]
    dsimp only
    constructor
    · rw [soutB0_row, pay2_apply]; rfl
    · rw [soutB1_row, pay3_apply]; rfl

/-- After point `128 g + k` (`k < 128`) the accumulators hold the addends of points `128 g … 128 g + k`. -/
theorem acc_sweep (c : Dev nD) (g : ℕ) (q : Fin 128) :
    ∀ (k : ℕ) (_ : k < 128) (hn : 128 * g + k < cfg0.N),
      acc0 m c (128 * g + k) hn q = 0 + ∑ s ∈ Finset.range (k + 1), tileCnt m c (128 * g + s) q
      ∧ acc1 m c (128 * g + k) hn q = 0 + ∑ s ∈ Finset.range (k + 1), tileSum m c (128 * g + s) q
  | 0, _, hn => by
    have h := acc_first m c (128 * g + 0) hn (by omega) q
    rw [Finset.sum_range_one, Finset.sum_range_one]
    exact h
  | k + 1, hk, hn => by
    have hstep := acc_next m c (128 * g + k) hn (by omega) q
    have ih := acc_sweep c g q k (by omega) (Nat.lt_of_succ_lt hn)
    constructor
    · rw [Finset.sum_range_succ _ (k + 1)]
      exact (hstep.1.trans (congrArg (· + _) ih.1)).trans (add_assoc _ _ _)
    · rw [Finset.sum_range_succ _ (k + 1)]
      exact (hstep.2.trans (congrArg (· + _) ih.2)).trans (add_assoc _ _ _)

end Cert.KernelIdeal.KInv

end
-- ==== Proof.KFinal.lean ====
/-
  The two result arrays after the region, on row 0.

  Output block g of either result is written back once, after the last point (128 g + 127) of sweep g, and holds the
  accumulator as that point leaves it. So the arrays' row 0 at slot g, lane q, is the sum of the addends of the 128
  tiles of sweep g. Rows 1..7 of the blocks carry whatever the accumulators' other rows held; nothing reads them, and
  nothing is said of them: the statement about the array is per element (every element some flushed block covers has
  the property every flushed element has).
-/
import proofs.«133772_j21406117003629_2_alg».proof.Proof.KInv
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KValue Cert.KernelIdeal.KInv

/-- The accumulator recast to the output block's shape, read at (0, a, q): the accumulator at (a, q). -/
theorem pay4_at (v : Vec Ideal S8x128 .f32) (a : Fin 8) (q : Fin 128) : k0_pay4 (F := Ideal) v (ix3 0 a q) = v (ix2 a q) := by
  unfold k0_pay4
  exact shapeCast_apply v shapeCasts_S8x128_S1x8x128 (ix3 0 a q) (ix2 a q) (by
    rw [Shape.rowMajor_val_two, Shape.rowMajor_val_three]
    show a.val * 128 + q.val = ((0 : Nat) * 8 + a.val) * 128 + q.val
    omega)

theorem pay5_at (v : Vec Ideal S8x128 .f32) (a : Fin 8) (q : Fin 128) : k0_pay5 (F := Ideal) v (ix3 0 a q) = v (ix2 a q) := by
  unfold k0_pay5
  exact shapeCast_apply v shapeCasts_S8x128_S1x8x128 (ix3 0 a q) (ix2 a q) (by
    rw [Shape.rowMajor_val_two, Shape.rowMajor_val_three]
    show a.val * 128 + q.val = ((0 : Nat) * 8 + a.val) * 128 + q.val
    omega)

/-- The printed index maps of the two output windows, decided once over the grid: block (t / 128, 0, 0). -/
theorem idx3 : ∀ t : Fin cfg0.N, win0_3.index t 0 = t.val / 128 ∧ win0_3.index t 1 = 0 ∧ win0_3.index t 2 = 0 :=
  (by decide +kernel : ∀ t : Fin grid0.N, win0_3.index t 0 = t.val / 128 ∧ win0_3.index t 1 = 0 ∧ win0_3.index t 2 = 0)
theorem idx4 : ∀ t : Fin cfg0.N, win0_4.index t 0 = t.val / 128 ∧ win0_4.index t 1 = 0 ∧ win0_4.index t 2 = 0 :=
  (by decide +kernel : ∀ t : Fin grid0.N, win0_4.index t 0 = t.val / 128 ∧ win0_4.index t 1 = 0 ∧ win0_4.index t 2 = 0)

variable (m : (ℓ : Loc nD τ sig) → Buf (Elt Ideal) ℓ)

theorem acc0_congr (c : Dev nD) (n n' : ℕ) (hn : n < cfg0.N) (hn' : n' < cfg0.N) (e : n = n') (q : Fin 128) :
    acc0 m c n hn q = acc0 m c n' hn' q := by subst e; rfl
theorem acc1_congr (c : Dev nD) (n n' : ℕ) (hn : n < cfg0.N) (hn' : n' < cfg0.N) (e : n = n') (q : Fin 128) :
    acc1 m c n hn q = acc1 m c n' hn' q := by subst e; rfl

/-- What a last point writes back, on row 0: the sweep's sums. -/
theorem flushed3_row0 (c : Dev nD) (t : Fin cfg0.N) (hf : (cfg0.win 3).flush t = true) (q : Fin 128) :
    (dats m 0 c).flushed 3 t (ix3 0 0 q) = 0 + ∑ s ∈ Finset.range 128, tileCnt m c (128 * (t.val / 128) + s) q := by
  have hN : cfg0.N = 256 := N_0
  have h127 : t.val % 128 = 127 := (flush0_3 t).mp hf
  have h0 : ¬t.val % 128 = 0 := by omega
  have hlt : t.val < 256 := hN ▸ t.isLt
  show (cfg0.win 3).cut (grid0.coords t) ((dats m 0 c).after 3 t) (ix3 0 0 q) = _
  rw [after0_3, outsAt0_C m c t h0 h127]
  dsimp only
  rw [outC3_eq]
  refine (pay4_at _ 0 q).trans ?_
  have hsw : 128 * (t.val / 128) + 127 = t.val := by omega
  have e1 : acc0 m c t.val t.isLt q = 0 + ∑ s ∈ Finset.range 128, tileCnt m c (128 * (t.val / 128) + s) q :=
    (acc0_congr m c _ _ t.isLt (by omega) hsw.symm q).trans (acc_sweep m c (t.val / 128) q 127 (by omega) (by omega)).1
  refine Eq.trans ?_ e1
  unfold acc0
  rw [outsAt0_C m c t h0 h127]

theorem flushed4_row0 (c : Dev nD) (t : Fin cfg0.N) (hf : (cfg0.win 4).flush t = true) (q : Fin 128) :
    (dats m 0 c).flushed 4 t (ix3 0 0 q) = 0 + ∑ s ∈ Finset.range 128, tileSum m c (128 * (t.val / 128) + s) q := by
  have hN : cfg0.N = 256 := N_0
  have h127 : t.val % 128 = 127 := (flush0_4 t).mp hf
  have h0 : ¬t.val % 128 = 0 := by omega
  have hlt : t.val < 256 := hN ▸ t.isLt
  show (cfg0.win 4).cut (grid0.coords t) ((dats m 0 c).after 4 t) (ix3 0 0 q) = _
  rw [after0_4, outsAt0_C m c t h0 h127]
  dsimp only
  rw [outC4_eq]
  refine (pay5_at _ 0 q).trans ?_
  have hsw : 128 * (t.val / 128) + 127 = t.val := by omega
  have e1 : acc1 m c t.val t.isLt q = 0 + ∑ s ∈ Finset.range 128, tileSum m c (128 * (t.val / 128) + s) q :=
    (acc1_congr m c _ _ t.isLt (by omega) hsw.symm q).trans (acc_sweep m c (t.val / 128) q 127 (by omega) (by omega)).2
  refine Eq.trans ?_ e1
  unfold acc1
  rw [outsAt0_C m c t h0 h127]

/-- The lane of an index of a [2,8,128] result. -/
def laneOf (i : S2x8x128.Idx) : Fin 128 := ⟨(i 2).val, (i 2).isLt⟩

theorem tileCnt_congr (c : Dev nD) (n n' : ℕ) (q q' : Fin 128) (e : n = n') (e' : q = q') : tileCnt m c n q = tileCnt m c n' q' := by
  subst e; subst e'; rfl
theorem tileSum_congr (c : Dev nD) (n n' : ℕ) (q q' : Fin 128) (e : n = n') (e' : q = q') : tileSum m c n q = tileSum m c n' q' := by
  subst e; subst e'; rfl

/-- The blocks' extents at every point (no block is clipped). -/
theorem xs3 : ∀ t : Fin cfg0.N, win0_3.xsize (grid0.coords t) 0 = 1 ∧ win0_3.xsize (grid0.coords t) 1 = 8 ∧ win0_3.xsize (grid0.coords t) 2 = 128 :=
  (by decide +kernel : ∀ t : Fin grid0.N, win0_3.xsize (grid0.coords t) 0 = 1 ∧ win0_3.xsize (grid0.coords t) 1 = 8 ∧ win0_3.xsize (grid0.coords t) 2 = 128)
theorem xs4 : ∀ t : Fin cfg0.N, win0_4.xsize (grid0.coords t) 0 = 1 ∧ win0_4.xsize (grid0.coords t) 1 = 8 ∧ win0_4.xsize (grid0.coords t) 2 = 128 :=
  (by decide +kernel : ∀ t : Fin grid0.N, win0_4.xsize (grid0.coords t) 0 = 1 ∧ win0_4.xsize (grid0.coords t) 1 = 8 ∧ win0_4.xsize (grid0.coords t) 2 = 128)

/-- Row 0 of the count result after the region: slot g, lane q holds the sums over sweep g. -/
theorem final3 (c : Dev nD) (g : Fin 2) (q : Fin 128) :
    (dats m 0 c).arrAt 3 cfg0.N (ix3 g 0 q) = 0 + ∑ s ∈ Finset.range 128, tileCnt m c (128 * g.val + s) q := by
  have hN : cfg0.N = 256 := N_0
  have key := (dats m 0 c).arrAt_forall_of_cover 3
    (fun i v => (i 1).val = 0 → v = 0 + ∑ s ∈ Finset.range 128, tileCnt m c (128 * (i 0).val + s) (laneOf i))
    (fun t hf y hy => ?_) (fun i => ?_) (ix3 g 0 q)
  · exact key rfl
  · -- every element of row 0 that a last point writes back
    have hx0 : (y 0).val < 1 := lt_of_lt_of_eq (y 0).isLt (xs3 t).1
    have hx2 : (y 2).val < 128 := lt_of_lt_of_eq (y 2).isLt (xs3 t).2.2
    have hv1 : ((((cfg0.win 3).blk t).view.emb y) 1).val = win0_3.index t 1 * win0_3.size 1 + (y 1).val := win0_3.rect_emb_val t y 1
    rw [(idx3 t).2.1] at hv1
    have hy1 : (y 1).val = 0 := by omega
    have hyq : y = ix3 0 0 (⟨(y 2).val, hx2⟩ : Fin 128) := funext fun a => Fin.ext (by
      match a with
      | ⟨0, _⟩ => show (y 0).val = 0; omega
      | ⟨1, _⟩ => show (y 1).val = 0; omega
      | ⟨2, _⟩ => rfl)
    generalize (⟨(y 2).val, hx2⟩ : Fin 128) = q' at hyq
    subst hyq
    have e0 : ((((cfg0.win 3).blk t).view.emb (ix3 0 0 q')) 0).val = t.val / 128 :=
      (win0_3.rect_emb_val t (ix3 0 0 q') 0).trans (by rw [(idx3 t).1]; show t.val / 128 * 1 + 0 = _; omega)
    have e2 : laneOf (((cfg0.win 3).blk t).view.emb (ix3 0 0 q')) = q' := Fin.ext
      ((win0_3.rect_emb_val t (ix3 0 0 q') 2).trans (by rw [(idx3 t).2.2]; show 0 * 128 + q'.val = _; omega))
    rw [cast_eq]
    refine (flushed3_row0 m c t hf q').trans ?_
    exact congrArg (0 + ·) (Finset.sum_congr rfl fun s _ => tileCnt_congr m c _ _ _ _ (by rw [e0]) e2.symm)
  · -- every element is under the block of its slot's last point
    have h0 : (i 0 : Nat) < 2 := (i 0).isLt
    have h1 : (i 1 : Nat) < 8 := (i 1).isLt
    have h2 : (i 2 : Nat) < 128 := (i 2).isLt
    have hb : 128 * (i 0 : Nat) + 127 < cfg0.N := by rw [hN]; omega
    refine ⟨⟨128 * (i 0 : Nat) + 127, hb⟩, (flush0_3 _).mpr (by show (128 * (i 0 : Nat) + 127) % 128 = 127; omega), ?_⟩
    show i ∈ ((View.whole main_v1_0).slice (win0_3.rect ⟨128 * (i 0 : Nat) + 127, hb⟩)).set
    rw [View.set_slice_whole, Rect.mem_set_unit]
    intro a
    match a with
    | ⟨0, _⟩ =>
      show win0_3.index _ 0 * win0_3.size 0 ≤ (i 0 : Nat) ∧ (i 0 : Nat) < win0_3.index _ 0 * win0_3.size 0 + win0_3.xsize (grid0.coords _) 0
      rw [(idx3 _).1, (xs3 _).1]
      show (128 * (i 0 : Nat) + 127) / 128 * 1 ≤ (i 0 : Nat) ∧ (i 0 : Nat) < (128 * (i 0 : Nat) + 127) / 128 * 1 + 1
      omega
    | ⟨1, _⟩ =>
      show win0_3.index _ 1 * win0_3.size 1 ≤ (i 1 : Nat) ∧ (i 1 : Nat) < win0_3.index _ 1 * win0_3.size 1 + win0_3.xsize (grid0.coords _) 1
      rw [(idx3 _).2.1, (xs3 _).2.1]
      omega
    | ⟨2, _⟩ =>
      show win0_3.index _ 2 * win0_3.size 2 ≤ (i 2 : Nat) ∧ (i 2 : Nat) < win0_3.index _ 2 * win0_3.size 2 + win0_3.xsize (grid0.coords _) 2
      rw [(idx3 _).2.2, (xs3 _).2.2]
      omega

/-- Row 0 of the per-bin-sum result after the region, likewise. -/
theorem final4 (c : Dev nD) (g : Fin 2) (q : Fin 128) :
    (dats m 0 c).arrAt 4 cfg0.N (ix3 g 0 q) = 0 + ∑ s ∈ Finset.range 128, tileSum m c (128 * g.val + s) q := by
  have hN : cfg0.N = 256 := N_0
  have key := (dats m 0 c).arrAt_forall_of_cover 4
    (fun i v => (i 1).val = 0 → v = 0 + ∑ s ∈ Finset.range 128, tileSum m c (128 * (i 0).val + s) (laneOf i))
    (fun t hf y hy => ?_) (fun i => ?_) (ix3 g 0 q)
  · exact key rfl
  · -- every element of row 0 that a last point writes back
    have hx0 : (y 0).val < 1 := lt_of_lt_of_eq (y 0).isLt (xs4 t).1
    have hx2 : (y 2).val < 128 := lt_of_lt_of_eq (y 2).isLt (xs4 t).2.2
    have hv1 : ((((cfg0.win 4).blk t).view.emb y) 1).val = win0_4.index t 1 * win0_4.size 1 + (y 1).val := win0_4.rect_emb_val t y 1
    rw [(idx4 t).2.1] at hv1
    have hy1 : (y 1).val = 0 := by omega
    have hyq : y = ix3 0 0 (⟨(y 2).val, hx2⟩ : Fin 128) := funext fun a => Fin.ext (by
      match a with
      | ⟨0, _⟩ => show (y 0).val = 0; omega
      | ⟨1, _⟩ => show (y 1).val = 0; omega
      | ⟨2, _⟩ => rfl)
    generalize (⟨(y 2).val, hx2⟩ : Fin 128) = q' at hyq
    subst hyq
    have e0 : ((((cfg0.win 4).blk t).view.emb (ix3 0 0 q')) 0).val = t.val / 128 :=
      (win0_4.rect_emb_val t (ix3 0 0 q') 0).trans (by rw [(idx4 t).1]; show t.val / 128 * 1 + 0 = _; omega)
    have e2 : laneOf (((cfg0.win 4).blk t).view.emb (ix3 0 0 q')) = q' := Fin.ext
      ((win0_4.rect_emb_val t (ix3 0 0 q') 2).trans (by rw [(idx4 t).2.2]; show 0 * 128 + q'.val = _; omega))
    rw [cast_eq]
    refine (flushed4_row0 m c t hf q').trans ?_
    exact congrArg (0 + ·) (Finset.sum_congr rfl fun s _ => tileSum_congr m c _ _ _ _ (by rw [e0]) e2.symm)
  · -- every element is under the block of its slot's last point
    have h0 : (i 0 : Nat) < 2 := (i 0).isLt
    have h1 : (i 1 : Nat) < 8 := (i 1).isLt
    have h2 : (i 2 : Nat) < 128 := (i 2).isLt
    have hb : 128 * (i 0 : Nat) + 127 < cfg0.N := by rw [hN]; omega
    refine ⟨⟨128 * (i 0 : Nat) + 127, hb⟩, (flush0_4 _).mpr (by show (128 * (i 0 : Nat) + 127) % 128 = 127; omega), ?_⟩
    show i ∈ ((View.whole main_v1_1).slice (win0_4.rect ⟨128 * (i 0 : Nat) + 127, hb⟩)).set
    rw [View.set_slice_whole, Rect.mem_set_unit]
    intro a
    match a with
    | ⟨0, _⟩ =>
      show win0_4.index _ 0 * win0_4.size 0 ≤ (i 0 : Nat) ∧ (i 0 : Nat) < win0_4.index _ 0 * win0_4.size 0 + win0_4.xsize (grid0.coords _) 0
      rw [(idx4 _).1, (xs4 _).1]
      show (128 * (i 0 : Nat) + 127) / 128 * 1 ≤ (i 0 : Nat) ∧ (i 0 : Nat) < (128 * (i 0 : Nat) + 127) / 128 * 1 + 1
      omega
    | ⟨1, _⟩ =>
      show win0_4.index _ 1 * win0_4.size 1 ≤ (i 1 : Nat) ∧ (i 1 : Nat) < win0_4.index _ 1 * win0_4.size 1 + win0_4.xsize (grid0.coords _) 1
      rw [(idx4 _).2.1, (xs4 _).2.1]
      omega
    | ⟨2, _⟩ =>
      show win0_4.index _ 2 * win0_4.size 2 ≤ (i 2 : Nat) ∧ (i 2 : Nat) < win0_4.index _ 2 * win0_4.size 2 + win0_4.xsize (grid0.coords _) 2
      rw [(idx4 _).2.2, (xs4 _).2.2]
      omega

end Cert.KernelIdeal.KFinal

end
-- ==== Proof.KTail.lean ====
/-
  The host lines after the kernel region, read at the one index of their scalar result.

  The region leaves two [2,8,128] arrays: per core-slot g, row 0 holds the per-bin counts, resp. the per-bin sums of
  -log p, of that slot's half of the rows (lanes 0..29 are the bins). The host lines slice row 0 of each slot's block
  down to the 30 bins, add the two slots, and form
     Σ_b W_b · S_b / (max (number of non-empty bins) 1 · N),   W_b = N / max C_b 1 where C_b > 0, else 0,
  which is the specification's `lossK` of the pairwise sums C_b, S_b.
-/
import proofs.«133772_j21406117003629_2_alg».proof.Proof.Gen.KernelIdeal.Frame
import proofs.«133772_j21406117003629_2_alg».proof.Proof.Spec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KTail

open Cert.KernelIdeal Cert.KernelIdeal.Gen

/-- Bin `b` as a lane of the 128-wide accumulator row. -/
def bcol (b : Fin 30) : Fin 128 := ⟨b.val, by have h : b.val < 30 := b.isLt; omega⟩

/-- The two core-slots' partial rows added: what the slices, the recasts and the sum read off a [2,8,128] result. -/
def pairSum (o : S2x8x128.Idx → EReal) (b : Fin 30) : EReal := o (ix3 0 0 (bcol b)) + o (ix3 1 0 (bcol b))

/-- The integer reduction the host applies to the non-empty bits. -/
def redK : IVec Cert.BinLoss.S30 32 → IVec Cert.BinLoss.S0 32 :=
  fun x => Host.reduce IntOp.addi x (constantI S_ 32 0#32) reducesTo_S30_S_d0 h_S_

/-- Slot `g`'s partial row: the slice [g:g+1, 0:1, 0:30] recast to [30], at bin `b`, is the array at (g, 0, b). -/
theorem sliceRow_apply (o : S2x8x128.Idx → EReal) (g : Fin 2) (off : Fin 3 → Nat) (hoff : off = ![g.val, 0, 0])
    (h : S2x8x128.Slices off S1x1x30) (h' : S1x1x30.ShapeCasts S30) (b : Fin 30) :
    shapeCast S30 (extractStridedSlice S1x1x30 off o h) h' (ix1 b) = o (ix3 g 0 (bcol b)) := by
  subst hoff
  rw [shapeCast_apply _ h' (ix1 b) (ix3 0 0 b) (by
    rw [Shape.rowMajor_val_three, Shape.rowMajor_val_one]
    show ((0 : Nat) * 1 + 0) * 30 + b.val = b.val
    omega)]
  exact extractStridedSlice_apply _ o h (ix3 0 0 b) (ix3 g 0 (bcol b)) (fun a => by
    match a with
    | ⟨0, _⟩ => show g.val = g.val + 0; omega
    | ⟨1, _⟩ => show (0 : Nat) = 0 + 0; omega
    | ⟨2, _⟩ => show b.val = 0 + b.val; omega)

/-- The pairwise sum of the two slots' partial rows, as the host computes it (two slices, two recasts, one add). -/
def rowsAdded (o : FVec Ideal S2x8x128 .f32) : FVec Ideal S30 .f32 :=
  addf (shapeCast S30 (extractStridedSlice S1x1x30 ![0, 0, 0] o slices_S2x8x128_S1x1x30_0_0_0) shapeCasts_S1x1x30_S30)
    (shapeCast S30 (extractStridedSlice S1x1x30 ![1, 0, 0] o slices_S2x8x128_S1x1x30_1_0_0) shapeCasts_S1x1x30_S30)

theorem rowsAdded_eq (o : FVec Ideal S2x8x128 .f32) : rowsAdded o = fun j => pairSum o (j 0) := by
  funext j
  obtain ⟨b, rfl⟩ : ∃ b : Fin 30, j = ix1 b := ⟨j 0, eq_ix1 j⟩
  exact congrArg₂ (· + ·) (sliceRow_apply o 0 ![0, 0, 0] rfl slices_S2x8x128_S1x1x30_0_0_0 shapeCasts_S1x1x30_S30 b)
    (sliceRow_apply o 1 ![1, 0, 0] rfl slices_S2x8x128_S1x1x30_1_0_0 shapeCasts_S1x1x30_S30 b)

/-- The rest of the host lines, from the per-bin counts and sums. -/
def lossOfRows (cnt sl : FVec Ideal S30 .f32) : FVec Ideal S_ .f32 :=
  Host.divf
    (Host.reduceAdd
      (mulf
        (select (cmpf .ogt cnt (broadcastInDim S30 ![] bcast_S_S30 (constant (F := Ideal) S_ .f32 0x00000000#32)))
          (Host.divf (broadcastInDim S30 ![] bcast_S_S30 (constant (F := Ideal) S_ .f32 0x49800000#32))
            (maximumf cnt (broadcastInDim S30 ![] bcast_S_S30 (constant (F := Ideal) S_ .f32 0x3F800000#32))))
          (broadcastInDim S30 ![] bcast_S_S30 (constant (F := Ideal) S_ .f32 0x00000000#32)))
        sl)
      (constant (F := Ideal) S_ .f32 0x00000000#32) reducesTo_S30_S_d0 h_S_)
    (mulf
      (maximumf
        (sitofp .f32 (Host.reduce IntOp.addi
          (extui 32 (cmpf .ogt cnt (broadcastInDim S30 ![] bcast_S_S30 (constant (F := Ideal) S_ .f32 0x00000000#32))) natLt_1_32)
          (constantI S_ 32 0#32) reducesTo_S30_S_d0 h_S_))
        (constant (F := Ideal) S_ .f32 0x3F800000#32))
      (constant (F := Ideal) S_ .f32 0x49800000#32))

variable (m : (ℓ : Loc nD τ sig) → Buf (Elt Ideal) ℓ)

set_option maxHeartbeats 40000000 in
/-- The result buffer after the host lines is that function of the two result arrays. -/
theorem tail_raw (c : Dev nD) :
    Pipeline.afterTail₀ cfgs (dats m) 0 (V0 m) [hostOps1, hostOps1_1, hostOps1_2] c main_v28
      = lossOfRows (rowsAdded ((dats m 0 c).arrAt 3 cfg0.N)) (rowsAdded ((dats m 0 c).arrAt 4 cfg0.N)) := by
  have e3 : Pipeline.withArrays (cfgs 0).spec c (V0 m c) (fun w => (dats m 0 c).arrAt w (cfgs 0).N) (Proc.devRef .tc main_v1_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_1)
      = (dats m 0 c).arrAt 4 cfg0.N := Pipeline.withArrays_arr spec0 launch0.win.arr_inj c _ _ 4
  unfold Pipeline.afterTail₀
  simp only [hostOps1, hostOps1_1, hostOps1_2, List.flatten_cons, List.flatten_nil, List.append_nil, List.cons_append, List.nil_append]
  after_results_simp
  rw [e3, e4]
  rfl

/-- The indices of a [30] vector are the thirty bins. -/
def idx30 : S30.Idx ≃ Fin 30 where
  toFun j := j 0
  invFun b := ix1 b
  left_inv j := (eq_ix1 j).symm
  right_inv _ := rfl

/-- Read at its one index, it is the specification's per-bin form of the loss. -/
theorem lossOfRows_apply (cnt sl : Fin 30 → EReal) :
    lossOfRows (fun j => cnt (j 0)) (fun j => sl (j 0)) ix0
      = Cert.BinLoss.lossK cnt sl (Cert.BinLoss.nonempty redK cnt) := by
  unfold lossOfRows Cert.BinLoss.lossK
  show Ideal.div _ _ = Ideal.div _ _
  refine congrArg₂ Ideal.div ?_ ?_
  · simp only [Host.reduceAdd, Ideal.hostReduceAdd_def]
    rw [Ideal.hostReduceAdd_total reducesTo_S30_S_d0 (fun b => b.elim0)]
    refine congrArg₂ (· + ·) Ideal.ofBits_zero_f32 ((Fintype.sum_equiv idx30 _ _ fun j => ?_))
    obtain ⟨k, rfl⟩ : ∃ k : Fin 30, j = ix1 k := ⟨j 0, eq_ix1 j⟩
    show Scalar.select (Ideal.cmp .ogt (cnt k) (Ideal.ofBits .f32 0x00000000#32))
        (Ideal.div (Ideal.ofBits .f32 0x49800000#32) (max (cnt k) (Ideal.ofBits .f32 0x3F800000#32))) (Ideal.ofBits .f32 0x00000000#32) * sl k = _
    rw [Ideal.ofBits_zero_f32]
    rfl
  · show max ((((Host.reduce IntOp.addi (fun j : S30.Idx => (Ideal.cmp .ogt (cnt (j 0)) (Ideal.ofBits .f32 0x00000000#32)).setWidth 32)
        (constantI S_ 32 0#32) reducesTo_S30_S_d0 h_S_) ix0).toInt : ℝ) : EReal) (Ideal.ofBits .f32 0x3F800000#32) * Ideal.ofBits .f32 0x49800000#32 = _
    rw [Ideal.ofBits_zero_f32]
    rfl

/-- The result buffer after the host lines, at its one index: `lossK` of the pairwise sums of the two result arrays. -/
theorem tail_value (c : Dev nD) :
    Pipeline.afterTail₀ cfgs (dats m) 0 (V0 m) [hostOps1, hostOps1_1, hostOps1_2] c main_v28 ix0
      = Cert.BinLoss.lossK (pairSum ((dats m 0 c).arrAt 3 cfg0.N)) (pairSum ((dats m 0 c).arrAt 4 cfg0.N))
          (Cert.BinLoss.nonempty redK (pairSum ((dats m 0 c).arrAt 3 cfg0.N))) := by
  rw [tail_raw, rowsAdded_eq, rowsAdded_eq]
  exact lossOfRows_apply _ _

end Cert.KernelIdeal.KTail

end
-- ==== Proof.KBlocks.lean ====
/-
  The input windows' blocks, read at an index.

  Grid point t stages rows [4096 t, 4096 t + 4096) of the scores, of the targets, and of the label column (the labels
  recast by the host from [N] to [N,1] before the region). So element (r, c) of point t's block is the array's element
  (4096 t + r, c), and the label of its row r is the label array's entry 4096 t + r.
-/
import proofs.«133772_j21406117003629_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KBlocks

open Cert.KernelIdeal Cert.KernelIdeal.Gen

/-- The printed index maps of the three input windows, decided once over the grid: block (t, 0). -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- Row r of tile t, as a row of the whole array. -/
def rowAt (t : Fin cfg0.N) (r : Fin 4096) : Fin 1048576 :=
  ⟨4096 * t.val + r.val, by have h : t.val < 256 := (N_0 ▸ t.isLt); have := r.isLt; omega⟩

variable (m : (ℓ : Loc nD τ sig) → Buf (Elt Ideal) ℓ)

theorem iblk0_apply (c : Dev nD) (t : Fin cfg0.N) (r : Fin 4096) (q : Fin 128) :
    (iblk m c 0 t : Vec Ideal S4096x128 .f32) (ix2 r q) = m ((c.tc : Thread nD τ).loc main_arg0) (ix2 (rowAt t r) q) := by
  unfold iblk
  rw [View.read_apply]
  show V m c main_arg0 _ = _
  rw [V_main_arg0]
  congr 1
  funext a
  apply Fin.ext
  match a with
  | ⟨0, _⟩ => show win0_0.index t 0 * 4096 + 1 * r.val = 4096 * t.val + r.val; rw [(idx0 t).1]; omega
  | ⟨1, _⟩ => show win0_0.index t 1 * 128 + 1 * q.val = q.val; rw [(idx0 t).2]; omega

theorem iblk1_apply (c : Dev nD) (t : Fin cfg0.N) (r : Fin 4096) (q : Fin 128) :
    (iblk m c 1 t : Vec Ideal S4096x128 .f32) (ix2 r q) = m ((c.tc : Thread nD τ).loc main_arg1) (ix2 (rowAt t r) q) := by
  unfold iblk
  rw [View.read_apply]
  show V m c main_arg1 _ = _
  rw [V_main_arg1]
  congr 1
  funext a
  apply Fin.ext
  match a with
  | ⟨0, _⟩ => show win0_1.index t 0 * 4096 + 1 * r.val = 4096 * t.val + r.val; rw [(idx1 t).1]; omega
  | ⟨1, _⟩ => show win0_1.index t 1 * 128 + 1 * q.val = q.val; rw [(idx1 t).2]; omega

/-- The label column the region finds is the label array recast to [N,1]. -/
theorem V_labels (c : Dev nD) :
    (V m c main_v0 : S1048576x1.Idx → BitVec 32) = shapeCast S1048576x1 (m ((c.tc : Thread nD τ).loc main_arg2)) shapeCasts_S1048576_S1048576x1 := by
  show StableHlo.after hostOps0 (fun b => m (c, b)) (Proc.devRef .tc main_v0) = _
  after_results
  rfl

theorem iblk2_apply (c : Dev nD) (t : Fin cfg0.N) (r : Fin 4096) :
    (iblk m c 2 t : Vec Ideal S4096x1 .i32) (ix2 r 0) = m ((c.tc : Thread nD τ).loc main_arg2) (ix1 (rowAt t r)) := by
  unfold iblk
  rw [View.read_apply]
  show V m c main_v0 _ = _
  rw [V_labels]
  refine shapeCast_apply _ shapeCasts_S1048576_S1048576x1 _ (ix1 (rowAt t r)) ?_
  rw [Shape.rowMajor_val_one, Shape.rowMajor_val_two]
  show 4096 * t.val + r.val = (win0_2.index t 0 * 4096 + 1 * r.val) * 1 + (win0_2.index t 1 * 1 + 1 * 0)
  rw [(idx2 t).1, (idx2 t).2]
  omega

end Cert.KernelIdeal.KBlocks

end
-- ==== Proof.KRun.lean ====
/-
  The kernel program's run, read: every weakly fair execution ends with the scalar result buffer at what the host lines
  after the region compute from the region's two result arrays, and the three argument arrays unchanged.
-/
import proofs.«133772_j21406117003629_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.KRun

open Cert.KernelIdeal Cert.KernelIdeal.Gen

variable {F : FTy → Type} [FloatOps F]
variable (m : (ℓ : Loc nD τ sig) → Buf (Elt F) ℓ) (ρ : Dev nD → PrngReg)

/-- What the result buffer holds after the run: the host lines applied to the region's result arrays. -/
abbrev result (c : Dev nD) : Buf (Elt F) ((c.tc : Thread nD τ).loc main_v28) :=
  Pipeline.afterTail₀ cfgs (dats m) 0 (V0 m) [hostOps1, hostOps1_1, hostOps1_2] c main_v28

theorem run : θ_run defs (onTc (τ := τ) (main (F := F))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v28 (Pipeline.mem_restRefs_of main_v28 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.TileRow.lean ====
/-
  The tile body's arithmetic along a row: the class mask, the per-row log-probability and the bin-mask words of a
  [4096, 128] tile, read at one row and one column.

  For a row `r` of the tile write `p = rowOf x0 r` for its 128 scores, `t = rowOf x1 r` for its targets and `l` for
  its label word.  The mask at `(r, c)` is `hot l c`; the row's log-probability is the masked sum of the scores minus
  the log-sum-exp (the maximum from `-∞`, plus the logarithm of the sum of shifted exponentials); the bin mask at
  `(r, c)` is the bit "column c is the row's bin word", widened to a word.  Every column-shaped intermediate value
  reads its one entry of row `r`.
-/
import proofs.«133772_j21406117003629_2_alg».proof.Proof.TileValueA

noncomputable section

namespace Cert.KernelIdeal.TileValue

open Cert.BinLoss Cert.KernelIdeal Cert.KernelIdeal.Gen Idealize.ShloMosaic Idealize.ShloMosaic.ValueIdx

/-! ## The class mask -/

/-- The class mask at `(r, c)`: the column number compared with the row's label, as a number. -/
theorem pay8_apply (x2 : Vec Ideal S4096x1 .i32) (r : Fin 4096) (c : Fin 128) :
    k0_pay8 (F := Ideal) x2 (ix2 r c) = hot (x2 (ix2 r 0)) c := by
  unfold k0_pay8
  show ((((IntOp.cmpi .eq (iota .tc S4096x128 32 [1] iota_S4096x128_d1_w32 (ix2 r c))
      (broadcastTo S4096x128 (shapeCast S4096x1 x2 shapeCasts_S4096x1_S4096x1) broadcasts_S4096x1_S4096x128
        (ix2 r c))).setWidth 32).toInt : ℝ) : EReal) = _
  rw [iota_single_apply, LibColumn.broadcastTo_a1_ab_apply, shapeCast_self]
  exact cmpi_eq_toInt _ _

/-! ## The row's log-probability -/

/-- The log-probability column at row `r`: the masked sum of the scores minus the log-sum-exp of the row. -/
theorem pay9_apply (x0 : Vec Ideal S4096x128 .f32) (x2 : Vec Ideal S4096x1 .i32) (r : Fin 4096) :
    k0_pay9 (F := Ideal) x0 x2 (ix2 r 0)
      = (∑ c, rowOf x0 r c * hot (x2 (ix2 r 0)) c)
        - (rowMax (rowOf x0 r) + Ideal.log (∑ c, Ideal.exp (rowOf x0 r c - rowMax (rowOf x0 r)))) := by
  unfold k0_pay9
  simp only [subf_apply, addf_apply, log_apply, LibColumn.shapeCast_a_a1_apply]
  rw [colSum_apply, colSum_apply, colMax_apply]
  simp only [mulf_apply, exp_apply, subf_apply, LibColumn.broadcastTo_a1_ab_apply, LibColumn.shapeCast_a_a1_apply,
    pay8_apply]
  rw [colMax_apply]
  rfl

/-- Its negation is the negated log-probability of the labelled class. -/
theorem pay9_neg (x0 : Vec Ideal S4096x128 .f32) (x2 : Vec Ideal S4096x1 .i32) (r : Fin 4096) :
    0 - k0_pay9 (F := Ideal) x0 x2 (ix2 r 0) = negLogpK (rowOf x0 r) (x2 (ix2 r 0)) := by
  rw [pay9_apply]; rfl

/-! ## The bin mask -/

/-- The bin-mask word at `(r, c)`: the bit "column `c` is the bin word of the row's gradient norm", widened. -/
theorem pay10_apply (x0 x1 : Vec Ideal S4096x128 .f32) (x2 : Vec Ideal S4096x1 .i32) (r : Fin 4096) (c : Fin 128) :
    k0_pay10 (F := Ideal) x0 x1 x2 (ix2 r c)
      = (IntOp.cmpi .eq (BitVec.ofNat 32 c.val)
          (binWord (gradK (rowOf x0 r) (rowOf x1 r) (x2 (ix2 r 0))))).setWidth 32 := by
  unfold k0_pay10
  simp only [extui_apply, cmpi_apply, LibColumn.broadcastTo_a1_ab_apply, minsi_apply, maxsi_apply, broadcast_apply,
    fptosi_apply, floor_apply, mulf_apply, LibColumn.shapeCast_a_a1_apply]
  rw [iota_single_apply, colSum_apply]
  simp only [mulf_apply, absf_apply, subf_apply, logistic_apply, pay8_apply]
  unfold binWord gradK thirty rowOf
  rfl
end Cert.KernelIdeal.TileValue

end
-- ==== Proof.TileValue.lean ====
/-
  What one tile adds to the accumulators at the column of a bin.

  At the column of a bin `b` the mask word of row `r` is 1 when the row's bin is `b` and 0 otherwise (the bin word is
  below 30, so comparing words is comparing bins).  Hence the tile adds to column `b` of the count accumulator the
  number of its rows in bin `b`, and to column `b` of the log-probability accumulator the sum of their negated
  log-probabilities.
-/
import proofs.«133772_j21406117003629_2_alg».proof.Proof.TileAcc
import proofs.«133772_j21406117003629_2_alg».proof.Proof.TileRow
import proofs.«133772_j21406117003629_2_alg».proof.Proof.BinWord

noncomputable section

namespace Cert.KernelIdeal.TileValue

open Cert.BinLoss Cert.KernelIdeal Cert.KernelIdeal.Gen Idealize.ShloMosaic Idealize.ShloMosaic.ValueIdx

/-! ## At the column of a bin -/

/-- A bin seen as a column of the tile. -/
def bcol (b : Fin NB) : Fin 128 := ⟨b.val, by have h : b.val < 30 := b.isLt; omega⟩

/-- For a bin word below 30, the bin is `b` exactly when the word is the word of `b`. -/
theorem binOf_eq_iff (g : EReal) (hg : (binWord g).toNat < 30) (b : Fin NB) :
    binOf g = b ↔ binWord g = BitVec.ofNat 32 b.val := by
  have hb : b.val < 30 := b.isLt
  unfold binOf
  rw [dif_pos hg]
  constructor
  · intro h
    have hv : (binWord g).toNat = b.val := congrArg Fin.val h
    apply BitVec.eq_of_toNat_eq
    rw [hv, BitVec.toNat_ofNat]
    omega
  · intro h
    apply Fin.ext
    show (binWord g).toNat = b.val
    rw [h, BitVec.toNat_ofNat]
    omega

/-- The mask word of row `r` at a column `q` whose number is the bin `b`, as a number: 1 when the row is in bin `b`,
    else 0. -/
theorem mask_at (x0 x1 : Vec Ideal S4096x128 .f32) (x2 : Vec Ideal S4096x1 .i32) (r : Fin 4096) (b : Fin NB)
    (q : Fin 128) (hq : q.val = b.val) :
    (((k0_pay10 (F := Ideal) x0 x1 x2 (ix2 r q)).toInt : ℝ) : EReal)
      = if binOf (gradK (rowOf x0 r) (rowOf x1 r) (x2 (ix2 r 0))) = b then 1 else 0 := by
  rw [pay10_apply, cmpi_eq_toInt, hq]
  by_cases h : binOf (gradK (rowOf x0 r) (rowOf x1 r) (x2 (ix2 r 0))) = b
  · rw [if_pos h, if_pos ((binOf_eq_iff _ (binWord_lt _) b).mp h)]
  · rw [if_neg h, if_neg fun e => h ((binOf_eq_iff _ (binWord_lt _) b).mpr e)]

/-- The same at the column of the bin. -/
theorem mask_toInt (x0 x1 : Vec Ideal S4096x128 .f32) (x2 : Vec Ideal S4096x1 .i32) (r : Fin 4096) (b : Fin NB) :
    (((k0_pay10 (F := Ideal) x0 x1 x2 (ix2 r (bcol b))).toInt : ℝ) : EReal)
      = if binOf (gradK (rowOf x0 r) (rowOf x1 r) (x2 (ix2 r 0))) = b then (1 : EReal) else 0 :=
  mask_at x0 x1 x2 r b (bcol b) rfl

/-- One tile adds to the count of bin `b` the number of its rows in bin `b`. -/
theorem tile_count (x0 x1 : Vec Ideal S4096x128 .f32)
    (x2 : Vec Ideal S4096x1 .i32) (acc : Vec Ideal S1x128 .f32) (b : Fin NB) :
    k0_pay2 (F := Ideal) (k0_pay10 (F := Ideal) x0 x1 x2) acc (ix2 0 (bcol b))
      = acc (ix2 0 (bcol b))
        + ∑ r : Fin 4096, (if binOf (gradK (rowOf x0 r) (rowOf x1 r) (x2 (ix2 r 0))) = b then (1 : EReal) else 0) := by
  rw [pay2_apply]
  exact congrArg (acc (ix2 0 (bcol b)) + ·) (Finset.sum_congr rfl fun r _ => mask_toInt x0 x1 x2 r b)

/-- One tile adds to the log-probability sum of bin `b` the negated log-probabilities of its rows in bin `b`. -/
theorem tile_sum (x0 x1 : Vec Ideal S4096x128 .f32)
    (x2 : Vec Ideal S4096x1 .i32) (acc : Vec Ideal S1x128 .f32) (b : Fin NB) :
    k0_pay3 (F := Ideal) (k0_pay9 (F := Ideal) x0 x2) (k0_pay10 (F := Ideal) x0 x1 x2) acc (ix2 0 (bcol b))
      = acc (ix2 0 (bcol b))
        + ∑ r : Fin 4096, (if binOf (gradK (rowOf x0 r) (rowOf x1 r) (x2 (ix2 r 0))) = b then (1 : EReal) else 0)
            * negLogpK (rowOf x0 r) (x2 (ix2 r 0)) := by
  rw [pay3_apply]
  exact congrArg (acc (ix2 0 (bcol b)) + ·) (Finset.sum_congr rfl fun r _ => by
    rw [mask_toInt x0 x1 x2 r b, pay9_neg])

end Cert.KernelIdeal.TileValue

end
-- ==== Proof.GridSum.lean ====
/-
  The rows re-indexed by tile.  The rows 0 … 2^20 - 1 are swept in two passes of 128 tiles of 4096 rows each
  (2 · 128 · 4096 = 2^20): row `4096 · (128 · p + s) + r` is row `r` of tile `s` of pass `p`.  A sum over all rows is
  the sum, over the two passes, of the sums over the tiles of the sums over a tile's rows, each pass summed onto a zero.
-/
import Mathlib.Algebra.BigOperators.Fin
import Mathlib.Algebra.BigOperators.Intervals
import Mathlib.Data.EReal.Basic

noncomputable section

namespace Cert.BinLoss

/-- `a` consecutive blocks of `b` terms: the sum block by block is the sum of the first `a · b` terms. -/
theorem sum_blocks {β : Type*} [AddCommMonoid β] (f : ℕ → β) (a b : ℕ) :
    ∑ s ∈ Finset.range a, ∑ r ∈ Finset.range b, f (b * s + r) = ∑ R ∈ Finset.range (a * b), f R := by
  induction a with
  | zero => simp
  | succ a ih =>
    rw [Finset.sum_range_succ, ih, Nat.succ_mul, Finset.sum_range_add]
    simp only [Nat.mul_comm b a]

/-- Two passes of 128 tiles of 4096 rows are the 2^20 rows. -/
theorem sum_two_sweeps {β : Type*} [AddCommMonoid β] (f : ℕ → β) :
    (0 + ∑ s ∈ Finset.range 128, ∑ r : Fin 4096, f (4096 * (128 * 0 + s) + r.val))
      + (0 + ∑ s ∈ Finset.range 128, ∑ r : Fin 4096, f (4096 * (128 * 1 + s) + r.val)) = ∑ R : Fin 1048576, f R.val := by
  have hfin : ∀ t, ∑ r : Fin 4096, f (4096 * t + r.val) = ∑ r ∈ Finset.range 4096, f (4096 * t + r) :=
    fun t => Fin.sum_univ_eq_sum_range (fun r => f (4096 * t + r)) 4096
  rw [Fin.sum_univ_eq_sum_range (fun R => f R) 1048576]
  simp only [hfin, zero_add, Nat.mul_zero, Nat.mul_one]
  rw [← Finset.sum_range_add (fun t => ∑ r ∈ Finset.range 4096, f (4096 * t + r)) 128 128]
  exact sum_blocks f 256 4096

/-- The same for a family over the rows `F` and its tile-by-tile reading `G`: `G n r` is row `r` of tile `n`. -/
theorem sum_two_sweeps_fin (F : Fin 1048576 → EReal) (G : ℕ → Fin 4096 → EReal)
    (hG : ∀ (n : ℕ) (hn : n < 256) (r : Fin 4096), G n r = F ⟨4096 * n + r.val, by have := r.isLt; omega⟩) :
    (0 + ∑ s ∈ Finset.range 128, ∑ r : Fin 4096, G (128 * 0 + s) r)
      + (0 + ∑ s ∈ Finset.range 128, ∑ r : Fin 4096, G (128 * 1 + s) r) = ∑ R : Fin 1048576, F R := by
  classical
  let f : ℕ → EReal := fun n => if h : n < 1048576 then F ⟨n, h⟩ else 0
  have hf : ∀ R : Fin 1048576, F R = f R.val := by
    intro R
    simp only [f, dif_pos R.isLt]
  have hg : ∀ n, n < 256 → ∀ r : Fin 4096, G n r = f (4096 * n + r.val) := by
    intro n hn r
    have hlt : 4096 * n + r.val < 1048576 := by have := r.isLt; omega
    rw [hG n hn r]
    simp only [f, dif_pos hlt]
  have e0 : ∑ s ∈ Finset.range 128, ∑ r : Fin 4096, G (128 * 0 + s) r
      = ∑ s ∈ Finset.range 128, ∑ r : Fin 4096, f (4096 * (128 * 0 + s) + r.val) :=
    Finset.sum_congr rfl (fun s hs => Finset.sum_congr rfl (fun r _ =>
      hg _ (by have := Finset.mem_range.1 hs; omega) r))
  have e1 : ∑ s ∈ Finset.range 128, ∑ r : Fin 4096, G (128 * 1 + s) r
      = ∑ s ∈ Finset.range 128, ∑ r : Fin 4096, f (4096 * (128 * 1 + s) + r.val) :=
    Finset.sum_congr rfl (fun s hs => Finset.sum_congr rfl (fun r _ =>
      hg _ (by have := Finset.mem_range.1 hs; omega) r))
  rw [e0, e1, sum_two_sweeps f]
  exact Finset.sum_congr rfl (fun R _ => (hf R).symm)

end Cert.BinLoss

end
-- ==== Proof.KLoss.lean ====
/-
  The kernel program's result is the specification's `lossKernel` of the argument arrays.

  Row 0 of the two result arrays holds, per core-slot, the sums over that slot's 128 tiles of the tiles' addends; a
  tile's addend at lane b is the sum over its 4096 rows of the bin-mask numbers (times -log p, for the second array);
  the mask number of a row at lane b is 1 exactly when the row's bin is b; and row r of tile n is row 4096 n + r of the
  arguments. So the two slots' rows added are the sums over ALL rows: the counts per bin and the per-bin sums of -log p,
  and the host lines turn them into `lossK`.
-/
import proofs.«133772_j21406117003629_2_alg».proof.Proof.KFinal
import proofs.«133772_j21406117003629_2_alg».proof.Proof.KTail
import proofs.«133772_j21406117003629_2_alg».proof.Proof.KBlocks
import proofs.«133772_j21406117003629_2_alg».proof.Proof.KRun
import proofs.«133772_j21406117003629_2_alg».proof.Proof.TileValue
import proofs.«133772_j21406117003629_2_alg».proof.Proof.GridSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KLoss

open Cert.KernelIdeal Cert.KernelIdeal.Gen Cert.KernelIdeal.KInv Cert.KernelIdeal.KFinal Cert.KernelIdeal.KBlocks
open Cert.KernelIdeal.TileValue (rowOf mask_at pay9_neg)
open Cert.KernelIdeal.KTail (bcol pairSum redK tail_value)

/-- The score (or target) array as rows of classes, and the label array as words per row. -/
def Pm (x : FVec Ideal S1048576x128 .f32) : Fin Cert.BinLoss.NR → Fin Cert.BinLoss.NC → EReal := fun r q => x (ix2 r q)
def Lm (x : IVec S1048576 32) : Fin Cert.BinLoss.NR → BitVec 32 := fun r => x (ix1 r)

variable (m : (ℓ : Loc nD τ sig) → Buf (Elt Ideal) ℓ)

abbrev P0 (c : Dev nD) := Pm (m ((c.tc : Thread nD τ).loc main_arg0))
abbrev T0 (c : Dev nD) := Pm (m ((c.tc : Thread nD τ).loc main_arg1))
abbrev L0 (c : Dev nD) := Lm (m ((c.tc : Thread nD τ).loc main_arg2))

/-- Row r of tile t of the scores is row 4096 t + r of the score array; likewise the targets and the labels. -/
theorem rowOf_blk0 (c : Dev nD) (t : Fin cfg0.N) (r : Fin 4096) : rowOf (iblk m c 0 t) r = P0 m c (rowAt t r) :=
  funext fun q => iblk0_apply m c t r q
theorem rowOf_blk1 (c : Dev nD) (t : Fin cfg0.N) (r : Fin 4096) : rowOf (iblk m c 1 t) r = T0 m c (rowAt t r) :=
  funext fun q => iblk1_apply m c t r q
theorem label_blk2 (c : Dev nD) (t : Fin cfg0.N) (r : Fin 4096) :
    (iblk m c 2 t : Vec Ideal S4096x1 .i32) (ix2 r 0) = L0 m c (rowAt t r) := iblk2_apply m c t r

/-- Tile n's row r addend of the count at bin b: whether row 4096 n + r is in bin b. -/
def cntAdd (c : Dev nD) (b : Fin 30) (n : ℕ) (r : Fin 4096) : EReal :=
  if h : n < cfg0.N then Cert.BinLoss.ind (Cert.BinLoss.binK (P0 m c) (T0 m c) (L0 m c)) b (rowAt ⟨n, h⟩ r) else 0

/-- Tile n's row r addend of the per-bin sum at bin b. -/
def sumAdd (c : Dev nD) (b : Fin 30) (n : ℕ) (r : Fin 4096) : EReal :=
  if h : n < cfg0.N then
    Cert.BinLoss.ind (Cert.BinLoss.binK (P0 m c) (T0 m c) (L0 m c)) b (rowAt ⟨n, h⟩ r) * Cert.BinLoss.aK (P0 m c) (L0 m c) (rowAt ⟨n, h⟩ r)
  else 0

theorem tileCnt_eq (c : Dev nD) (b : Fin 30) (n : ℕ) : tileCnt m c n (bcol b) = ∑ r : Fin 4096, cntAdd m c b n r := by
  unfold tileCnt cntAdd
  by_cases h : n < cfg0.N
  · rw [dif_pos h]
    refine Finset.sum_congr rfl fun r _ => ?_
    rw [dif_pos h, mask_at _ _ _ r b (bcol b) rfl, rowOf_blk0, rowOf_blk1, label_blk2]
    rfl
  · rw [dif_neg h]
    exact (Finset.sum_eq_zero fun r _ => by rw [dif_neg h]).symm

theorem tileSum_eq (c : Dev nD) (b : Fin 30) (n : ℕ) : tileSum m c n (bcol b) = ∑ r : Fin 4096, sumAdd m c b n r := by
  unfold tileSum sumAdd
  by_cases h : n < cfg0.N
  · rw [dif_pos h]
    refine Finset.sum_congr rfl fun r _ => ?_
    rw [dif_pos h, mask_at _ _ _ r b (bcol b) rfl, pay9_neg, rowOf_blk0, rowOf_blk1, label_blk2]
    rfl
  · rw [dif_neg h]
    exact (Finset.sum_eq_zero fun r _ => by rw [dif_neg h]).symm

/-- The two slots' count rows added are the rows per bin. -/
theorem pairSum_counts (c : Dev nD) (b : Fin 30) :
    pairSum ((dats m 0 c).arrAt 3 cfg0.N) b = Cert.BinLoss.counts (Cert.BinLoss.binK (P0 m c) (T0 m c) (L0 m c)) b := by
  have hN : cfg0.N = 256 := N_0
  unfold pairSum
  rw [final3 m c 0 (bcol b), final3 m c 1 (bcol b)]
  show (0 + ∑ s ∈ Finset.range 128, tileCnt m c (128 * 0 + s) (bcol b)) + (0 + ∑ s ∈ Finset.range 128, tileCnt m c (128 * 1 + s) (bcol b)) = _
  simp only [tileCnt_eq]
  exact Cert.BinLoss.sum_two_sweeps_fin (fun R => Cert.BinLoss.ind (Cert.BinLoss.binK (P0 m c) (T0 m c) (L0 m c)) b R) (cntAdd m c b)
    (fun n hn r => by unfold cntAdd; rw [dif_pos (hN ▸ hn)]; rfl)

/-- The two slots' sum rows added are the per-bin sums of -log p. -/
theorem pairSum_binSum (c : Dev nD) (b : Fin 30) :
    pairSum ((dats m 0 c).arrAt 4 cfg0.N) b
      = Cert.BinLoss.binSum (Cert.BinLoss.aK (P0 m c) (L0 m c)) (Cert.BinLoss.binK (P0 m c) (T0 m c) (L0 m c)) b := by
  have hN : cfg0.N = 256 := N_0
  unfold pairSum
  rw [final4 m c 0 (bcol b), final4 m c 1 (bcol b)]
  show (0 + ∑ s ∈ Finset.range 128, tileSum m c (128 * 0 + s) (bcol b)) + (0 + ∑ s ∈ Finset.range 128, tileSum m c (128 * 1 + s) (bcol b)) = _
  simp only [tileSum_eq]
  exact Cert.BinLoss.sum_two_sweeps_fin
    (fun R => Cert.BinLoss.ind (Cert.BinLoss.binK (P0 m c) (T0 m c) (L0 m c)) b R * Cert.BinLoss.aK (P0 m c) (L0 m c) R) (sumAdd m c b)
    (fun n hn r => by unfold sumAdd; rw [dif_pos (hN ▸ hn)]; rfl)

/-- The kernel program's result, at its one index. -/
theorem result_apply (c : Dev nD) :
    KRun.result m c ix0 = Cert.BinLoss.lossKernel redK (P0 m c) (T0 m c) (L0 m c) := by
  show Pipeline.afterTail₀ cfgs (dats m) 0 (V0 m) [hostOps1, hostOps1_1, hostOps1_2] c main_v28 ix0 = _
  rw [tail_value, funext (pairSum_counts m c), funext (pairSum_binSum m c)]
  rfl

end Cert.KernelIdeal.KLoss

end
-- ==== Proof.LibRealEntries.lean ====
/-
  Real numbers inside the extended reals, for kernels whose inputs are finite: three facts a proof needs once it knows
  that the entries it meets are real numbers.

  * a finite sum of real numbers, each read as an extended real, is the real sum read as an extended real
    (`coe_sum`);
  * the quotient the ideal instance gives two real numbers, the divisor positive, is their real quotient
    (`div_pos_coe`); in particular it is again a real number, and positive when the dividend is;
  * a real number minus itself is zero (`sub_self_of_real`) — on the extended reals `x - x` is zero only for real `x`
    (`⊤ - ⊤ = ⊥`), which is what makes a split such as `x = hi + (x - hi)` collapse.
-/
import Idealize.ShloMosaic.PureOps.Ideal

noncomputable section

namespace Cert.LibRealEntries

open Idealize.ShloMosaic

/-- A sum of reals, over any finite index set, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a positive real, at the ideal values, is their real quotient. -/
theorem div_pos_coe {a b : ℝ} (hb : 0 < b) : Ideal.div (a : EReal) (b : EReal) = ((a / b : ℝ) : EReal) := by
  rw [Ideal.div_coe hb.ne', ← EReal.coe_mul]; congr 1; ring

/-- A real minus itself is zero on the extended reals. -/
theorem sub_self_of_real {x : EReal} (hx : ∃ r : ℝ, x = (r : EReal)) : x - x = 0 := by
  obtain ⟨r, rfl⟩ := hx
  rw [← EReal.coe_sub, sub_self, EReal.coe_zero]

end Cert.LibRealEntries

end
-- ==== Proof.Rows.lean ====
/-
  One row of the loss: the class mask of a label selects one entry of a sum, the maximum of a row of real numbers is
  a real number, and on a row of real numbers the two arrangements of the negated log-probability are one real number.
  The two spellings of the gradient norm are equal on every row, real or not.  The bin word is always in [0, 29].
-/
import proofs.«133772_j21406117003629_2_alg».proof.Proof.Spec
import proofs.«133772_j21406117003629_2_alg».proof.Proof.Consts
import proofs.«133772_j21406117003629_2_alg».proof.Proof.LibRealEntries

noncomputable section

namespace Cert.BinLoss

open Idealize.ShloMosaic
open Cert.LibRealEntries

/-- The class mask of the label word of class `c0`: 1 at `c0`, 0 elsewhere (a class index is below 2^32, so the
    words of two classes are equal only for equal classes). -/
theorem hot_ofNat (c0 c : Fin NC) : hot (BitVec.ofNat 32 c0.val) c = if c = c0 then 1 else 0 := by
  unfold hot
  have h : (BitVec.ofNat 32 c0.val = BitVec.ofNat 32 c.val) ↔ c = c0 := by
    constructor
    · intro h
      have h2 := congrArg BitVec.toNat h
      simp only [BitVec.toNat_ofNat] at h2
      have h0 : c0.val < 128 := c0.isLt
      have h1 : c.val < 128 := c.isLt
      apply Fin.ext
      omega
    · intro h; rw [h]
  simp only [h]

/-- A sum against the class mask is the labelled entry. -/
theorem sum_mul_hot (g : Fin NC → EReal) (c0 : Fin NC) : ∑ c, g c * hot (BitVec.ofNat 32 c0.val) c = g c0 := by
  simp only [hot_ofNat, mul_ite, mul_one, mul_zero, Finset.sum_ite_eq', Finset.mem_univ, if_true]

/-- The maximum of a row of real numbers is one of them, so a real number. -/
theorem rowMax_real (x : Fin NC → ℝ) : ∃ m : ℝ, rowMax (fun c => (x c : EReal)) = (m : EReal) := by
  have h : rowMax (fun c => (x c : EReal)) = (Finset.univ : Finset (Fin NC)).sup (fun c => (x c : EReal)) := rfl
  obtain ⟨i, _, hi⟩ := Finset.exists_mem_eq_sup (Finset.univ : Finset (Fin NC)) ⟨⟨0, by decide⟩, Finset.mem_univ _⟩
    (fun c => (x c : EReal))
  exact ⟨x i, by rw [h, hi]⟩

/-- On a row of real numbers both arrangements of the negated log-probability are one real number:
    `-(x_l - m - log S)` with `m` the row maximum and `S = Σ_c exp (x_c - m) > 0`. -/
theorem negLogp_real (x : Fin NC → ℝ) (c0 : Fin NC) :
    ∃ a : ℝ, negLogpK (fun c => (x c : EReal)) (BitVec.ofNat 32 c0.val) = (a : EReal) ∧
      negLogpR (fun c => (x c : EReal)) (BitVec.ofNat 32 c0.val) = (a : EReal) := by
  obtain ⟨m, hm⟩ := rowMax_real x
  have hexp : ∀ c, Ideal.exp ((x c : EReal) - (m : EReal)) = ((Real.exp (x c - m) : ℝ) : EReal) := by
    intro c; rw [← EReal.coe_sub, Ideal.exp_coe]
  have hS : (0 : ℝ) < ∑ c : Fin NC, Real.exp (x c - m) :=
    Finset.sum_pos (fun c _ => Real.exp_pos _) ⟨⟨0, by decide⟩, Finset.mem_univ _⟩
  have hsum : (∑ c : Fin NC, Ideal.exp ((x c : EReal) - (m : EReal))) = ((∑ c : Fin NC, Real.exp (x c - m) : ℝ) : EReal) := by
    simp only [hexp]; exact coe_sum _ _
  have hlog : Ideal.log ((∑ c : Fin NC, Real.exp (x c - m) : ℝ) : EReal) = ((Real.log (∑ c : Fin NC, Real.exp (x c - m)) : ℝ) : EReal) := by
    rw [Ideal.log_coe, if_neg (not_le.2 hS)]
  refine ⟨-(x c0 - m - Real.log (∑ c : Fin NC, Real.exp (x c - m))), ?_, ?_⟩
  · unfold negLogpK
    rw [sum_mul_hot (fun c => (x c : EReal)) c0, hm, hsum, hlog, ← EReal.coe_add, ← EReal.coe_sub, ← EReal.coe_zero,
      ← EReal.coe_sub]
    congr 1; ring
  · unfold negLogpR
    simp only [zero_add]
    rw [hm, hsum, hlog,
      sum_mul_hot (fun c => ((x c : EReal) - (m : EReal)) - ((Real.log (∑ c : Fin NC, Real.exp (x c - m)) : ℝ) : EReal)) c0,
      ← EReal.coe_sub, ← EReal.coe_sub, ← EReal.coe_neg]

/-- The two spellings of the gradient norm are one extended real on every row: the logistic function is by definition
    the quotient `1 / (1 + exp (-x))`, the literal is the number one, and a sum onto zero is the sum. -/
theorem gradR_eq_gradK (p t : Fin NC → EReal) (l : BitVec 32) : gradR p t l = gradK p t l := by
  unfold gradR gradK
  rw [one_eq, zero_add]
  rfl

end Cert.BinLoss

end
-- ==== Proof.Regroup.lean ====
/-
  The regrouping.  Over any finite set of rows, for real row quantities `a_r`, bins `bin r` and an integer `k`
  (the number of non-empty bins as the programs count it), the loss with the per-bin sums taken first and the loss
  taken row by row are one real number:
      (Σ_b W_b · Σ_{r in bin b} a_r) / (M · N)  =  Σ_r (a_r · (W_{bin r} / M)) / N,
  with `W_b = N / max (count b) 1` on the non-empty bins and 0 on the empty ones, `M = max k 1` and `N = 2^20`.
  Every quantity in sight is a real number (the counts are finite sums of zeros and ones, the divisors are at least
  one), so the extended-real operations are the real ones and the identity is a change of the order of summation.
-/
import proofs.«133772_j21406117003629_2_alg».proof.Proof.Spec
import proofs.«133772_j21406117003629_2_alg».proof.Proof.Consts
import proofs.«133772_j21406117003629_2_alg».proof.Proof.LibRealEntries

noncomputable section

namespace Cert.BinLoss

open Idealize.ShloMosaic
open Cert.LibRealEntries

/-- The coercion of the reals into the extended reals is monotone, so it commutes with `max`. -/
theorem coe_max' (a b : ℝ) : ((max a b : ℝ) : EReal) = max (a : EReal) (b : EReal) :=
  EReal.coe_strictMono.monotone.map_max

section rows

variable {ι : Type} [Fintype ι]

/-- Rows in bin `b`, as a real number. -/
def cntR (bin : ι → Fin NB) (b : Fin NB) : ℝ := ∑ r, (if bin r = b then (1 : ℝ) else 0)

/-- The weight of bin `b`, as a real number. -/
def wR (bin : ι → Fin NB) (b : Fin NB) : ℝ := if 0 < cntR bin b then 1048576 / max (cntR bin b) 1 else 0

theorem ind_coe (bin : ι → Fin NB) (b : Fin NB) (r : ι) : ind bin b r = ((if bin r = b then (1 : ℝ) else 0 : ℝ) : EReal) := by
  unfold ind
  split_ifs
  · exact EReal.coe_one.symm
  · exact EReal.coe_zero.symm

theorem counts_coe (bin : ι → Fin NB) (b : Fin NB) : counts bin b = (cntR bin b : EReal) := by
  unfold counts cntR
  simp only [ind_coe]
  exact coe_sum _ _

theorem binSum_coe (a : ι → ℝ) (bin : ι → Fin NB) (b : Fin NB) :
    binSum (fun r => (a r : EReal)) bin b = ((∑ r, (if bin r = b then (1 : ℝ) else 0) * a r : ℝ) : EReal) := by
  unfold binSum
  simp only [ind_coe, ← EReal.coe_mul]
  exact coe_sum _ _

theorem weight_coe (bin : ι → Fin NB) (b : Fin NB) : weight (counts bin) b = (wR bin b : EReal) := by
  unfold weight wR
  rw [counts_coe, one_eq_coe, tot_eq, ← coe_max']
  have hpos : (0 : ℝ) < max (cntR bin b) 1 := lt_of_lt_of_le one_pos (le_max_right _ _)
  rw [div_pos_coe hpos]
  unfold Scalar.select Ideal.cmp
  by_cases h : 0 < cntR bin b
  · have h' : (0 : EReal) < (cntR bin b : EReal) := by exact_mod_cast h
    simp [h, h']
  · have h' : ¬ (0 : EReal) < (cntR bin b : EReal) := by exact_mod_cast h
    simp [h, h']

/-- The regrouping: per-bin sums first, or row by row, one real number. -/
theorem lossK_eq_lossR (a : ι → ℝ) (bin : ι → Fin NB) (k : ℤ) :
    lossK (counts bin) (binSum (fun r => (a r : EReal)) bin) (((k : ℝ)) : EReal)
      = lossR (counts bin) (((k : ℝ)) : EReal) (fun r => (a r : EReal)) bin := by
  have hM : (0 : ℝ) < max (k : ℝ) 1 := lt_of_lt_of_le one_pos (le_max_right _ _)
  have hN : (0 : ℝ) < 1048576 := by norm_num
  have hMN : (0 : ℝ) < max (k : ℝ) 1 * 1048576 := mul_pos hM hN
  have hterm : ∀ r, Ideal.div ((a r : EReal) * Ideal.div (wR bin (bin r) : EReal) ((max (k : ℝ) 1 : ℝ) : EReal))
      ((1048576 : ℝ) : EReal) = ((a r * (wR bin (bin r) / max (k : ℝ) 1) / 1048576 : ℝ) : EReal) := by
    intro r
    rw [div_pos_coe hM, ← EReal.coe_mul, div_pos_coe hN]
  have key : ∑ b, wR bin b * ∑ r, (if bin r = b then (1 : ℝ) else 0) * a r = ∑ r, wR bin (bin r) * a r := by
    simp only [Finset.mul_sum]
    rw [Finset.sum_comm]
    refine Finset.sum_congr rfl (fun r _ => ?_)
    simp only [ite_mul, one_mul, zero_mul, mul_ite, mul_zero, Finset.sum_ite_eq, Finset.mem_univ, if_true]
  unfold lossK lossR
  simp only [weight_coe, binSum_coe, one_eq_coe, tot_eq, ← coe_max', ← EReal.coe_mul, hterm, zero_add]
  rw [coe_sum, coe_sum, div_pos_coe hMN]
  congr 1
  rw [key, Finset.sum_div]
  refine Finset.sum_congr rfl (fun r _ => ?_)
  field_simp

end rows

end Cert.BinLoss

end
-- ==== Proof.Bridge.lean ====
/-
  The two programs' results are one extended real when the scores and targets are real numbers and every label is a
  class index.  Row by row: the two spellings of the gradient norm are equal, so the rows fall in the same bins; the
  two arrangements of the negated log-probability are one real number.  Then the two losses differ only by the order
  of summation (the regrouping), and the number of non-empty bins is an integer read as a real number on both sides.
-/
import proofs.«133772_j21406117003629_2_alg».proof.Proof.Spec
import proofs.«133772_j21406117003629_2_alg».proof.Proof.Rows
import proofs.«133772_j21406117003629_2_alg».proof.Proof.Regroup

noncomputable section

namespace Cert.BinLoss

open Idealize.ShloMosaic

/-- The rows fall in the same bins on both sides. -/
theorem binR_eq_binK (P T : Fin NR → Fin NC → EReal) (Lb : Fin NR → BitVec 32) : binR P T Lb = binK P T Lb := by
  funext r
  unfold binR binK
  rw [gradR_eq_gradK]

/-- The row quantity is one real number on both sides. -/
theorem aK_aR_real (P : Fin NR → Fin NC → EReal) (Lb : Fin NR → BitVec 32)
    (hP : ∀ r c, ∃ x : ℝ, P r c = (x : EReal)) (hL : ∀ r, ∃ c : Fin NC, Lb r = BitVec.ofNat 32 c.val) (r : Fin NR) :
    ∃ a : ℝ, aK P Lb r = (a : EReal) ∧ aR P Lb r = (a : EReal) := by
  obtain ⟨c0, hc0⟩ := hL r
  choose x hx using hP r
  have hrow : P r = fun c => (x c : EReal) := funext hx
  unfold aK aR
  rw [hrow, hc0]
  exact negLogp_real x c0

theorem lossKernel_eq_lossRef (red : IVec S30 32 → IVec S0 32) (P T : Fin NR → Fin NC → EReal) (Lb : Fin NR → BitVec 32)
    (hP : ∀ r c, ∃ x : ℝ, P r c = (x : EReal)) (hT : ∀ r c, ∃ x : ℝ, T r c = (x : EReal))
    (hL : ∀ r, ∃ c : Fin NC, Lb r = BitVec.ofNat 32 c.val) :
    lossKernel red P T Lb = lossRef red P T Lb := by
  choose a haK haR using aK_aR_real P Lb hP hL
  have hK : aK P Lb = fun r => (a r : EReal) := funext haK
  have hR : aR P Lb = fun r => (a r : EReal) := funext haR
  unfold lossKernel lossRef
  rw [binR_eq_binK, hK, hR]
  unfold nonempty
  exact lossK_eq_lossR a (binK P T Lb) _

end Cert.BinLoss

end
-- ==== Proof.PreDecode.lean ====
/-
  The precondition read back.  The printed predicate is the conjunction of three `all`s: every score has absolute
  value below +∞, every target has absolute value below +∞, and every label word is at least 0 and below 128 as a
  signed integer.  An extended real whose absolute value is below +∞ is neither infinity, so it is a real number; a
  word in [0, 128) signed is the word of a class index.
-/
import proofs.«133772_j21406117003629_2_alg».proof.Pre_finite_inputs
import proofs.«133772_j21406117003629_2_alg».proof.Proof.Gen.Pre_finite_inputs
import proofs.«133772_j21406117003629_2_alg».proof.Proof.Spec
import Idealize.ShloMosaic.Lib.ValueIdx
import Idealize.ShloMosaic.Lib.ReduceAll
import Idealize.ShloMosaic.PureOps.Ideal.Laws

noncomputable section

namespace Cert.BinLoss

open Idealize.ShloMosaic
open Cert.Pre_finite_inputs (S1048576x128 S1048576 S_)

/-- The rank-0 shape has one index. -/
instance : Subsingleton S_.Idx := ⟨fun a b => funext fun d => d.elim0⟩

/-- The pattern 0x7F800000 (exponent all ones, fraction 0, sign 0) is +∞. -/
theorem inf_eq : Ideal.ofBits .f32 0x7F800000#32 = ⊤ := by simp [Ideal.ofBits, Ideal.ieee]

/-- An extended real whose absolute value `max a (-a)` is below +∞ is a real number: at either infinity the absolute
    value is +∞. -/
theorem real_of_abs_lt_top (a : EReal) (h : Ideal.cmp .olt (max a (-a)) ⊤ = 1#1) : ∃ x : ℝ, a = (x : EReal) := by
  unfold Ideal.cmp at h
  induction a using EReal.rec with
  | bot => simp at h
  | coe x => exact ⟨x, rfl⟩
  | top => simp at h

/-- A word that is at least 0 and below 128 as a signed integer is the word of a class index. -/
theorem label_of_range (w : BitVec 32) (h0 : IntOp.cmpi .sge w 0#32 = 1#1) (h1 : IntOp.cmpi .slt w 128#32 = 1#1) :
    ∃ c : Fin NC, w = BitVec.ofNat 32 c.val := by
  rw [IntOp.cmpi_sge] at h0
  rw [IntOp.cmpi_slt] at h1
  have h4 : (0#32 : BitVec 32).toInt = 0 := by decide
  have h5 : (128#32 : BitVec 32).toInt = 128 := by decide
  rw [h4] at h0
  rw [h5] at h1
  have h3 := BitVec.toInt_eq_toNat_cond w
  have hw := w.isLt
  have hlt : w.toNat < 128 := by split_ifs at h3 <;> omega
  refine ⟨⟨w.toNat, hlt⟩, ?_⟩
  show w = BitVec.ofNat 32 w.toNat
  rw [BitVec.ofNat_toNat, BitVec.setWidth_eq]

theorem pre_decode [hF : Cert.Pre_finite_inputs.Facts] (x0 x1 : FVec Ideal S1048576x128 .f32) (x2 : IVec S1048576 32)
    (h : Cert.Pre_finite_inputs.fn (F := Ideal) x0 x1 x2 = fun _ => 1#1) :
    (∀ (r : Fin NR) (c : Fin NC), ∃ x : ℝ, x0 (ValueIdx.ix2 r c) = (x : EReal)) ∧
    (∀ (r : Fin NR) (c : Fin NC), ∃ x : ℝ, x1 (ValueIdx.ix2 r c) = (x : EReal)) ∧
    (∀ r : Fin NR, ∃ c : Fin NC, x2 (ValueIdx.ix1 r) = BitVec.ofNat 32 c.val) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun r c => ?_, fun r c => ?_, fun r => ?_⟩
  · have e := Host.reduce_andi_all _ _ _ _ ValueIdx.ix0 h0 (ValueIdx.ix2 r c)
    apply real_of_abs_lt_top
    rw [← inf_eq]
    exact e
  · have e := Host.reduce_andi_all _ _ _ _ ValueIdx.ix0 h1 (ValueIdx.ix2 r c)
    apply real_of_abs_lt_top
    rw [← inf_eq]
    exact e
  · have e := Host.reduce_andi_all _ _ _ _ ValueIdx.ix0 h2 (ValueIdx.ix1 r)
    obtain ⟨e0, e1⟩ := IntOp.andi_eq_one.1 e
    exact label_of_range _ e0 e1

end Cert.BinLoss

end
-- ==== Proof.lean ====
/-
  The certificate: the kernel program and the jnp reference compute the same histogram-weighted cross-entropy loss
  over the extended reals, for finite scores and targets and labels inside the class range.

  Per row r the two programs form the same two quantities: a_r = -(p_l - (m + log Σ_c exp (p_c - m))), the negated
  log-probability of the labelled class l (m the row maximum), and the row's bin, the clipped floor of thirty times
  g_r = |σ(p_l) - t_l|. The reference multiplies the log-softmax by the one-hot class mask and sums; the kernel subtracts
  the log-sum-exp from the masked sum of the scores: equal for a label inside the range, where the mask has exactly one 1
  (outside it the mask is zero and the two differ, which is why the labels' range is assumed). With C_b the number of
  rows in bin b, W_b = N / max C_b 1 on the non-empty bins and M = max (number of non-empty bins) 1, the reference
  returns Σ_r a_r · (W_{bin r} / M) / N row by row; the kernel accumulates C_b and S_b = Σ_{r in bin b} a_r tile by tile
  over its grid (two sweeps of 128 tiles of 4096 rows, one [8,128] accumulator pair per sweep, written out after each
  sweep's last tile) and its host lines return (Σ_b W_b · S_b) / (M · N). Over the reals these are one number: the
  sum over rows regrouped by bin (finiteness of the inputs makes every a_r real, which the regrouping needs: products
  and quotients distribute over sums of reals, not over infinities).

  The modules: Spec (the loss, in both arrangements, over plain index types), Consts / Rows / Regroup / Bridge (the two
  arrangements agree for real rows and in-range labels), BinWord (the clipped bin word lies in [0, 29]), PreDecode (the
  precondition says the scores and targets are real and the labels in range), GridSum (the rows re-indexed by tile);
  kernel side: TileValueA / TileAcc / TileRow / TileValue (the body's arithmetic at an index), KCases (what one grid
  point leaves in the accumulators and the output blocks), KInv (the accumulators over a sweep, by induction on the
  point), KFinal (row 0 of the two result arrays), KBlocks (the input blocks as rows of the arguments), KTail (the host
  lines after the region), KRun (the program's run), KLoss (its result is the specification's kernel form);
  reference side: RefRun / RefRead (the reference's run and its stages at an index), RefRows / RefCounts / RefValue (its
  result is the specification's reference form).
-/
import proofs.«133772_j21406117003629_2_alg».proof.Defs
import proofs.«133772_j21406117003629_2_alg».proof.Proof.Gen.Kernel
import proofs.«133772_j21406117003629_2_alg».proof.Proof.Gen.Kernel.Skeleton
import proofs.«133772_j21406117003629_2_alg».proof.Proof.Gen.Kernel.Launch
import proofs.«133772_j21406117003629_2_alg».proof.Proof.Gen.Kernel.Points
import proofs.«133772_j21406117003629_2_alg».proof.Proof.Gen.Kernel.Frame
import proofs.«133772_j21406117003629_2_alg».proof.Proof.Gen.KernelIdeal
import proofs.«133772_j21406117003629_2_alg».proof.Proof.Gen.KernelIdeal.Skeleton
import proofs.«133772_j21406117003629_2_alg».proof.Proof.Gen.KernelIdeal.Launch
import proofs.«133772_j21406117003629_2_alg».proof.Proof.Gen.KernelIdeal.Points
import proofs.«133772_j21406117003629_2_alg».proof.Proof.Gen.KernelIdeal.Frame
import proofs.«133772_j21406117003629_2_alg».proof.Proof.Gen.ReferenceIdeal
import proofs.«133772_j21406117003629_2_alg».proof.Proof.Gen.Pre_finite_inputs
import proofs.«133772_j21406117003629_2_alg».proof.Proof.RefRun
import proofs.«133772_j21406117003629_2_alg».proof.Proof.RefValue
import proofs.«133772_j21406117003629_2_alg».proof.Proof.KLoss
import proofs.«133772_j21406117003629_2_alg».proof.Proof.Bridge
import proofs.«133772_j21406117003629_2_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the loss: the kernel's form of it and the reference's, equal for real rows and in-range labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KRun.result m c, Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hP, hT, hL⟩ := Cert.BinLoss.pre_decode _ _ _ (hpre c)
  funext j
  rw [eq_ix0 j]
  show _ = Cert.KernelIdeal.KRun.result m c ix0
  rw [Cert.KernelIdeal.KLoss.result_apply]
  refine (Cert.ReferenceIdeal.RefValue.ref_value m' c).trans ?_
  rw [(hagree c).1, (hagree c).2.1, (hagree c).2.2]
  exact (Cert.BinLoss.lossKernel_eq_lossRef _ _ _ _ hP hT hL).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
